-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg15 : FVec F S2 .f32) (main_v63 : IVec S_ 1) (main_v67 : IVec S_ 1) : IVec S_ 1 :=
  let main_v68 : IVec S_ 1 := andi main_v63 main_v67
  let main_v69 : FVec F S2 .f32 := Host.absf main_arg15
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S64x2 .f32) (main_arg15 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x2 .f32 := Host.absf main_arg14
  let main_cst_24 : FVec F S_ .f32 := constant S_ .f32 0x7F800000#32
  let main_v65 : FVec F S64x2 .f32 := broadcastInDim S64x2 ![] bcast_S_S64x2 main_cst_24
  let main_v66 : IVec S64x2 1 := cmpf .olt main_v64 main_v65
  let main_c_25 : IVec S_ 1 := constantI S_ 1 1#1
  let main_v67 : IVec S_ 1 := (fun x v => Host.reduce IntOp.andi x v reducesTo_S64x2_S_d0_1 h_S_) main_v66 main_c_25
  fn_part4 (F := F) main_arg15 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x128 .f32) (main_arg1 : IVec S2x800000 32) (main_arg2 : FVec F S128x32 .f32) (main_arg3 : FVec F S32 .f32) (main_arg4 : FVec F S32x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x64 .f32) (main_arg13 : FVec F S64 .f32) (main_arg14 : FVec F S64x2 .f32) (main_arg15 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x64 .f32 := Host.absf main_arg4
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x32 : Shape := ⟨2, ![1, 32]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S5000x32 : Shape := ⟨2, ![5000, 32]⟩
abbrev S850000x64 : Shape := ⟨2, ![850000, 64]⟩
abbrev S1x2 : Shape := ⟨2, ![1, 2]⟩
abbrev S50000x2 : Shape := ⟨2, ![50000, 2]⟩
abbrev S5000x2 : Shape := ⟨2, ![5000, 2]⟩

abbrev nBuf : Space → Nat
  | .hbm => 144
  | .vmem => 62
  | .smem => 0
  | _ => 0

abbrev hbmTy0_0 (i : Nat) : BufTy := match i % 128 with
  | 0 => ⟨S50000x128, .f32⟩
  | 1 => ⟨S2x800000, .i32⟩
  | 2 => ⟨S128x32, .f32⟩
  | 3 => ⟨S32, .f32⟩
  | 4 => ⟨S32x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x2, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S1x32, .f32⟩
  | 60 => ⟨S1x64, .f32⟩
  | 61 => ⟨S50000x64, .f32⟩
  | 62 => ⟨S50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000x64, .f32⟩
  | 72 => ⟨S850000x1, .f32⟩
  | 73 => ⟨S850000x64, .f32⟩
  | 74 => ⟨S850000x64, .f32⟩
  | 75 => ⟨S_, .f32⟩
  | 76 => ⟨S50000x64, .f32⟩
  | 77 => ⟨S850000x1, .i32⟩
  | 78 => ⟨S50000x64, .f32⟩
  | 79 => ⟨S_, .f32⟩
  | 80 => ⟨S50000x64, .f32⟩
  | 81 => ⟨S1x64, .f32⟩
  | 82 => ⟨S50000x64, .f32⟩
  | 83 => ⟨S50000x64, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x64, .f32⟩
  | 93 => ⟨S850000x1, .f32⟩
  | 94 => ⟨S850000x64, .f32⟩
  | 95 => ⟨S850000x64, .f32⟩
  | 96 => ⟨S_, .f32⟩
  | 97 => ⟨S50000x64, .f32⟩
  | 98 => ⟨S850000x1, .i32⟩
  | 99 => ⟨S50000x64, .f32⟩
  | 100 => ⟨S1x64, .f32⟩
  | 101 => ⟨S50000x64, .f32⟩
  | 102 => ⟨S50000x64, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x64, .f32⟩
  | 112 => ⟨S850000x1, .f32⟩
  | 113 => ⟨S850000x64, .f32⟩
  | 114 => ⟨S850000x64, .f32⟩
  | 115 => ⟨S_, .f32⟩
  | 116 => ⟨S50000x64, .f32⟩
  | 117 => ⟨S850000x1, .i32⟩
  | 118 => ⟨S50000x64, .f32⟩
  | 119 => ⟨S_, .f32⟩
  | 120 => ⟨S50000x64, .f32⟩
  | 121 => ⟨S1x64, .f32⟩
  | 122 => ⟨S50000x64, .f32⟩
  | 123 => ⟨S50000x64, .f32⟩
  | 124 => ⟨S_, .i32⟩
  | 125 => ⟨S850000, .i32⟩
  | 126 => ⟨S850000, .i1⟩
  | 127 => ⟨S_, .i32⟩
  | _ => ⟨S50000x128, .f32⟩

abbrev hbmTy0_1 (i : Nat) : BufTy := match i % 128 with
  | 0 => ⟨S850000, .i32⟩
  | 1 => ⟨S850000, .i32⟩
  | 2 => ⟨S850000, .i32⟩
  | 3 => ⟨S850000x1, .i32⟩
  | 4 => ⟨S850000x64, .f32⟩
  | 5 => ⟨S850000x1, .f32⟩
  | 6 => ⟨S850000x64, .f32⟩
  | 7 => ⟨S850000x64, .f32⟩
  | 8 => ⟨S_, .f32⟩
  | 9 => ⟨S50000x64, .f32⟩
  | 10 => ⟨S850000x1, .i32⟩
  | 11 => ⟨S50000x64, .f32⟩
  | 12 => ⟨S1x64, .f32⟩
  | 13 => ⟨S50000x64, .f32⟩
  | 14 => ⟨S1x2, .f32⟩
  | 15 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S1x32, .f32⟩
  | .local _ .vmem, ⟨4, _⟩ => ⟨S32x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S64x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x2, .f32⟩
  | .local _ .vmem, ⟨59, _⟩ => ⟨S1x2, .f32⟩
  | .local _ .vmem, ⟨60, _⟩ => ⟨S5000x2, .f32⟩
  | .local _ .vmem, ⟨61, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_c : Ref sig .tc := ⟨.hbm, 40, rfl⟩
abbrev main_v17 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_c_6 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_10 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_c_12 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_c_14 : Ref sig .tc := ⟨.hbm, 103, rfl⟩
abbrev main_v69 : Ref sig .tc := ⟨.hbm, 104, rfl⟩
abbrev main_v70 : Ref sig .tc := ⟨.hbm, 105, rfl⟩
abbrev main_c_15 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_c_18 : Ref sig .tc := ⟨.hbm, 124, rfl⟩
abbrev main_v86 : Ref sig .tc := ⟨.hbm, 125, rfl⟩
abbrev main_v87 : Ref sig .tc := ⟨.hbm, 126, rfl⟩
abbrev main_c_19 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg2_1 : Ref sig .tc := ⟨.vmem, 36, rfl⟩
abbrev cc6_stg0_0 : Ref sig .tc := ⟨.vmem, 37, rfl⟩
abbrev cc6_stg0_1 : Ref sig .tc := ⟨.vmem, 38, rfl⟩
abbrev cc6_stg1_0 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc7_stg0_0 : Ref sig .tc := ⟨.vmem, 44, rfl⟩
abbrev cc7_stg0_1 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg2_1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg2_1 : Ref sig .tc := ⟨.vmem, 53, rfl⟩
abbrev cc8_stg3_0 : Ref sig .tc := ⟨.vmem, 54, rfl⟩
abbrev cc8_stg3_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg3_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem2_1 : DmaSem sig := 36
abbrev cc6_sem0_0 : DmaSem sig := 37
abbrev cc6_sem0_1 : DmaSem sig := 38
abbrev cc6_sem1_0 : DmaSem sig := 39
abbrev cc6_sem2_0 : DmaSem sig := 40
abbrev cc6_sem2_1 : DmaSem sig := 41
abbrev cc6_sem3_0 : DmaSem sig := 42
abbrev cc6_sem3_1 : DmaSem sig := 43
abbrev cc7_sem0_0 : DmaSem sig := 44
abbrev cc7_sem0_1 : DmaSem sig := 45
abbrev cc7_sem1_0 : DmaSem sig := 46
abbrev cc7_sem2_0 : DmaSem sig := 47
abbrev cc7_sem2_1 : DmaSem sig := 48
abbrev cc8_sem0_0 : DmaSem sig := 49
abbrev cc8_sem0_1 : DmaSem sig := 50
abbrev cc8_sem1_0 : DmaSem sig := 51
abbrev cc8_sem2_0 : DmaSem sig := 52
abbrev cc8_sem2_1 : DmaSem sig := 53
abbrev cc8_sem3_0 : DmaSem sig := 54
abbrev cc8_sem3_1 : DmaSem sig := 55
abbrev cc9_sem0_0 : DmaSem sig := 56
abbrev cc9_sem0_1 : DmaSem sig := 57
abbrev cc9_sem1_0 : DmaSem sig := 58
abbrev cc9_sem2_0 : DmaSem sig := 59
abbrev cc9_sem3_0 : DmaSem sig := 60
abbrev cc9_sem3_1 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x2 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x2 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x2 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S32_S1x32 : S32.ShapeCasts S1x32
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x32_S5000x32_1_0_0_1_n_n_wf : DotDims.WF S5000x128 S128x32 S5000x32 [1] [0] [0] [1] [] []
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S50000x64.size a
  hwx6_2 : ∀ i : grid6.Coords, EltTy.bits .f32 = 32 ∨ (Rect.block (s := S50000x64) S5000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S50000x64.size a
  hwx6_3 : ∀ i : grid6.Coords, EltTy.bits .f32 = 32 ∨ (Rect.block (s := S50000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S50000x64.size a
  hwx7_2 : ∀ i : grid7.Coords, EltTy.bits .f32 = 32 ∨ (Rect.block (s := S50000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x64.size a ≤ S50000x64.size a
  hwx8_2 : ∀ i : grid8.Coords, EltTy.bits .f32 = 32 ∨ (Rect.block (s := S50000x64) S5000x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x64.size a ≤ S50000x64.size a
  hwx8_3 : ∀ i : grid8.Coords, EltTy.bits .f32 = 32 ∨ (Rect.block (s := S50000x64) S5000x64.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x2.size a ≤ S64x2.size a
  hwx9_1 : ∀ i : grid9.Coords, EltTy.bits .f32 = 32 ∨ (Rect.block (s := S64x2) S64x2.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x2.size a ≤ S1x2.size a
  hwx9_2 : ∀ i : grid9.Coords, EltTy.bits .f32 = 32 ∨ (Rect.block (s := S1x2) S1x2.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x2.size a ≤ S50000x2.size a
  hwx9_3 : ∀ i : grid9.Coords, EltTy.bits .f32 = 32 ∨ (Rect.block (s := S50000x2) S5000x2.size (cc9_transform_3 i) (hinb9_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v35) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v49) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v51) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v52) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v67) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v81) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v83) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v82) S5000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v84) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v84) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg12) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v85) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v98) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v67) S5000x64.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v100) S5000x64.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v100) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg14) S64x2.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v101) S1x2.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v102) S5000x2.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x32 : Shape := ⟨2, ![50000, 32]⟩
abbrev S1x32 : Shape := ⟨2, ![1, 32]⟩
abbrev S50000x64 : Shape := ⟨2, ![50000, 64]⟩
abbrev S1x64 : Shape := ⟨2, ![1, 64]⟩
abbrev S850000x64 : Shape := ⟨2, ![850000, 64]⟩
abbrev S50000x2 : Shape := ⟨2, ![50000, 2]⟩
abbrev S1x2 : Shape := ⟨2, ![1, 2]⟩

abbrev nBuf : Space → Nat
  | .hbm => 234
  | .vmem => 0
  | .smem => 0
  | _ => 0

abbrev hbmTy0_0 (i : Nat) : BufTy := match i % 128 with
  | 0 => ⟨S50000x128, .f32⟩
  | 1 => ⟨S2x800000, .i32⟩
  | 2 => ⟨S128x32, .f32⟩
  | 3 => ⟨S32, .f32⟩
  | 4 => ⟨S32x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x2, .f32⟩
  | 15 => ⟨S2, .f32⟩
  | 16 => ⟨S50000, .i32⟩
  | 17 => ⟨S1x800000, .i32⟩
  | 18 => ⟨S800000, .i32⟩
  | 19 => ⟨S850000, .i32⟩
  | 20 => ⟨S1x800000, .i32⟩
  | 21 => ⟨S800000, .i32⟩
  | 22 => ⟨S850000, .i32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S50000x32, .f32⟩
  | 41 => ⟨S1x32, .f32⟩
  | 42 => ⟨S50000x32, .f32⟩
  | 43 => ⟨S50000x32, .f32⟩
  | 44 => ⟨S_, .f32⟩
  | 45 => ⟨S50000x32, .f32⟩
  | 46 => ⟨S50000x32, .f32⟩
  | 47 => ⟨S50000x64, .f32⟩
  | 48 => ⟨S1x64, .f32⟩
  | 49 => ⟨S50000x64, .f32⟩
  | 50 => ⟨S50000x64, .f32⟩
  | 51 => ⟨S50000x64, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000, .f32⟩
  | 61 => ⟨S_, .i32⟩
  | 62 => ⟨S850000, .i32⟩
  | 63 => ⟨S850000, .i1⟩
  | 64 => ⟨S_, .i32⟩
  | 65 => ⟨S850000, .i32⟩
  | 66 => ⟨S850000, .i32⟩
  | 67 => ⟨S850000, .i32⟩
  | 68 => ⟨S850000x1, .i32⟩
  | 69 => ⟨S850000, .f32⟩
  | 70 => ⟨S850000, .f32⟩
  | 71 => ⟨S_, .i32⟩
  | 72 => ⟨S850000, .i32⟩
  | 73 => ⟨S850000, .i1⟩
  | 74 => ⟨S_, .i32⟩
  | 75 => ⟨S850000, .i32⟩
  | 76 => ⟨S850000, .i32⟩
  | 77 => ⟨S850000, .i32⟩
  | 78 => ⟨S850000x1, .i32⟩
  | 79 => ⟨S850000x64, .f32⟩
  | 80 => ⟨S850000x1, .f32⟩
  | 81 => ⟨S850000x64, .f32⟩
  | 82 => ⟨S850000x64, .f32⟩
  | 83 => ⟨S_, .f32⟩
  | 84 => ⟨S50000x64, .f32⟩
  | 85 => ⟨S850000x1, .i32⟩
  | 86 => ⟨S50000x64, .f32⟩
  | 87 => ⟨S1x64, .f32⟩
  | 88 => ⟨S50000x64, .f32⟩
  | 89 => ⟨S50000x64, .f32⟩
  | 90 => ⟨S_, .f32⟩
  | 91 => ⟨S50000x64, .f32⟩
  | 92 => ⟨S50000x64, .i1⟩
  | 93 => ⟨S_, .f32⟩
  | 94 => ⟨S50000x64, .f32⟩
  | 95 => ⟨S50000x64, .f32⟩
  | 96 => ⟨S50000x64, .f32⟩
  | 97 => ⟨S50000x64, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S850000, .f32⟩
  | 117 => ⟨S_, .i32⟩
  | 118 => ⟨S850000, .i32⟩
  | 119 => ⟨S850000, .i1⟩
  | 120 => ⟨S_, .i32⟩
  | 121 => ⟨S850000, .i32⟩
  | 122 => ⟨S850000, .i32⟩
  | 123 => ⟨S850000, .i32⟩
  | 124 => ⟨S850000x1, .i32⟩
  | 125 => ⟨S850000x64, .f32⟩
  | 126 => ⟨S850000x1, .f32⟩
  | 127 => ⟨S850000x64, .f32⟩
  | _ => ⟨S50000x128, .f32⟩

abbrev hbmTy0_1 (i : Nat) : BufTy := match i % 128 with
  | 0 => ⟨S850000x64, .f32⟩
  | 1 => ⟨S_, .f32⟩
  | 2 => ⟨S50000x64, .f32⟩
  | 3 => ⟨S850000x1, .i32⟩
  | 4 => ⟨S50000x64, .f32⟩
  | 5 => ⟨S1x64, .f32⟩
  | 6 => ⟨S50000x64, .f32⟩
  | 7 => ⟨S50000x64, .f32⟩
  | 8 => ⟨S_, .f32⟩
  | 9 => ⟨S50000x64, .f32⟩
  | 10 => ⟨S50000x64, .i1⟩
  | 11 => ⟨S_, .f32⟩
  | 12 => ⟨S50000x64, .f32⟩
  | 13 => ⟨S50000x64, .f32⟩
  | 14 => ⟨S50000x64, .f32⟩
  | 15 => ⟨S50000x64, .f32⟩
  | 16 => ⟨S50000x64, .f32⟩
  | 17 => ⟨S_, .i32⟩
  | 18 => ⟨S850000, .i32⟩
  | 19 => ⟨S850000, .i1⟩
  | 20 => ⟨S_, .i32⟩
  | 21 => ⟨S850000, .i32⟩
  | 22 => ⟨S850000, .i32⟩
  | 23 => ⟨S850000, .i32⟩
  | 24 => ⟨S850000x1, .i32⟩
  | 25 => ⟨S850000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000x64, .f32⟩
  | 45 => ⟨S850000x1, .f32⟩
  | 46 => ⟨S850000x64, .f32⟩
  | 47 => ⟨S850000x64, .f32⟩
  | 48 => ⟨S_, .f32⟩
  | 49 => ⟨S50000x64, .f32⟩
  | 50 => ⟨S850000x1, .i32⟩
  | 51 => ⟨S50000x64, .f32⟩
  | 52 => ⟨S1x64, .f32⟩
  | 53 => ⟨S50000x64, .f32⟩
  | 54 => ⟨S50000x64, .f32⟩
  | 55 => ⟨S_, .f32⟩
  | 56 => ⟨S50000x64, .f32⟩
  | 57 => ⟨S50000x64, .i1⟩
  | 58 => ⟨S_, .f32⟩
  | 59 => ⟨S50000x64, .f32⟩
  | 60 => ⟨S50000x64, .f32⟩
  | 61 => ⟨S50000x64, .f32⟩
  | 62 => ⟨S50000x64, .f32⟩
  | 63 => ⟨S_, .i32⟩
  | 64 => ⟨S850000, .i32⟩
  | 65 => ⟨S850000, .i1⟩
  | 66 => ⟨S_, .i32⟩
  | 67 => ⟨S850000, .i32⟩
  | 68 => ⟨S850000, .i32⟩
  | 69 => ⟨S850000, .i32⟩
  | 70 => ⟨S850000x1, .i32⟩
  | 71 => ⟨S850000, .f32⟩
  | 72 => ⟨S_, .i32⟩
  | 73 => ⟨S850000, .i32⟩
  | 74 => ⟨S850000, .i1⟩
  | 75 => ⟨S_, .i32⟩
  | 76 => ⟨S850000, .i32⟩
  | 77 => ⟨S850000, .i32⟩
  | 78 => ⟨S850000, .i32⟩
  | 79 => ⟨S850000x1, .i32⟩
  | 80 => ⟨S850000, .f32⟩
  | 81 => ⟨S850000, .f32⟩
  | 82 => ⟨S_, .i32⟩
  | 83 => ⟨S850000, .i32⟩
  | 84 => ⟨S850000, .i1⟩
  | 85 => ⟨S_, .i32⟩
  | 86 => ⟨S850000, .i32⟩
  | 87 => ⟨S850000, .i32⟩
  | 88 => ⟨S850000, .i32⟩
  | 89 => ⟨S850000x1, .i32⟩
  | 90 => ⟨S850000x64, .f32⟩
  | 91 => ⟨S850000x1, .f32⟩
  | 92 => ⟨S850000x64, .f32⟩
  | 93 => ⟨S850000x64, .f32⟩
  | 94 => ⟨S_, .f32⟩
  | 95 => ⟨S50000x64, .f32⟩
  | 96 => ⟨S850000x1, .i32⟩
  | 97 => ⟨S50000x64, .f32⟩
  | 98 => ⟨S1x64, .f32⟩
  | 99 => ⟨S50000x64, .f32⟩
  | 100 => ⟨S50000x64, .f32⟩
  | 101 => ⟨S50000x64, .f32⟩
  | 102 => ⟨S50000x2, .f32⟩
  | 103 => ⟨S1x2, .f32⟩
  | 104 => ⟨S50000x2, .f32⟩
  | 105 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_call1_cst : Ref sig .tc := ⟨.hbm, 44, rfl⟩
abbrev main_call1_v0 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c : Ref sig .tc := ⟨.hbm, 52, rfl⟩
abbrev main_v27 : Ref sig .tc := ⟨.hbm, 53, rfl⟩
abbrev main_v28 : Ref sig .tc := ⟨.hbm, 54, rfl⟩
abbrev main_c_4 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_5 : Ref sig .tc := ⟨.hbm, 61, rfl⟩
abbrev main_v34 : Ref sig .tc := ⟨.hbm, 62, rfl⟩
abbrev main_v35 : Ref sig .tc := ⟨.hbm, 63, rfl⟩
abbrev main_c_6 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_c_7 : Ref sig .tc := ⟨.hbm, 71, rfl⟩
abbrev main_v42 : Ref sig .tc := ⟨.hbm, 72, rfl⟩
abbrev main_v43 : Ref sig .tc := ⟨.hbm, 73, rfl⟩
abbrev main_c_8 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_cst_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_10 : Ref sig .tc := ⟨.hbm, 90, rfl⟩
abbrev main_v58 : Ref sig .tc := ⟨.hbm, 91, rfl⟩
abbrev main_v59 : Ref sig .tc := ⟨.hbm, 92, rfl⟩
abbrev main_cst_11 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_c_12 : Ref sig .tc := ⟨.hbm, 98, rfl⟩
abbrev main_v64 : Ref sig .tc := ⟨.hbm, 99, rfl⟩
abbrev main_v65 : Ref sig .tc := ⟨.hbm, 100, rfl⟩
abbrev main_c_13 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_14 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_16 : Ref sig .tc := ⟨.hbm, 117, rfl⟩
abbrev main_v79 : Ref sig .tc := ⟨.hbm, 118, rfl⟩
abbrev main_v80 : Ref sig .tc := ⟨.hbm, 119, rfl⟩
abbrev main_c_17 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_18 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_19 : Ref sig .tc := ⟨.hbm, 136, rfl⟩
abbrev main_v95 : Ref sig .tc := ⟨.hbm, 137, rfl⟩
abbrev main_v96 : Ref sig .tc := ⟨.hbm, 138, rfl⟩
abbrev main_cst_20 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_c_21 : Ref sig .tc := ⟨.hbm, 145, rfl⟩
abbrev main_v102 : Ref sig .tc := ⟨.hbm, 146, rfl⟩
abbrev main_v103 : Ref sig .tc := ⟨.hbm, 147, rfl⟩
abbrev main_c_22 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_23 : Ref sig .tc := ⟨.hbm, 154, rfl⟩
abbrev main_v109 : Ref sig .tc := ⟨.hbm, 155, rfl⟩
abbrev main_v110 : Ref sig .tc := ⟨.hbm, 156, rfl⟩
abbrev main_c_24 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_c_25 : Ref sig .tc := ⟨.hbm, 164, rfl⟩
abbrev main_v117 : Ref sig .tc := ⟨.hbm, 165, rfl⟩
abbrev main_v118 : Ref sig .tc := ⟨.hbm, 166, rfl⟩
abbrev main_c_26 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_cst_27 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_28 : Ref sig .tc := ⟨.hbm, 183, rfl⟩
abbrev main_v133 : Ref sig .tc := ⟨.hbm, 184, rfl⟩
abbrev main_v134 : Ref sig .tc := ⟨.hbm, 185, rfl⟩
abbrev main_cst_29 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_c_30 : Ref sig .tc := ⟨.hbm, 191, rfl⟩
abbrev main_v139 : Ref sig .tc := ⟨.hbm, 192, rfl⟩
abbrev main_v140 : Ref sig .tc := ⟨.hbm, 193, rfl⟩
abbrev main_c_31 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_c_32 : Ref sig .tc := ⟨.hbm, 200, rfl⟩
abbrev main_v146 : Ref sig .tc := ⟨.hbm, 201, rfl⟩
abbrev main_v147 : Ref sig .tc := ⟨.hbm, 202, rfl⟩
abbrev main_c_33 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_c_34 : Ref sig .tc := ⟨.hbm, 210, rfl⟩
abbrev main_v154 : Ref sig .tc := ⟨.hbm, 211, rfl⟩
abbrev main_v155 : Ref sig .tc := ⟨.hbm, 212, rfl⟩
abbrev main_c_35 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_cst_36 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  dot_S50000x128_S128x32_S50000x32_1_0_0_1_n_n_wf : DotDims.WF S50000x128 S128x32 S50000x32 [1] [0] [0] [1] [] []
  dot_S50000x32_S32x64_S50000x64_1_0_0_1_n_n_wf : DotDims.WF S50000x32 S32x64 S50000x64 [1] [0] [0] [1] [] []
  dot_S50000x64_S64x64_S50000x64_1_0_0_1_n_n_wf : DotDims.WF S50000x64 S64x64 S50000x64 [1] [0] [0] [1] [] []
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x2_S50000x2_1_0_0_1_n_n_wf : DotDims.WF S50000x64 S64x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KRun.lean ====
/-
  The idealized kernel program's run with its RESULT named.  The program is ten pallas regions among stretches of
  host operations; the buffer contents at each boundary form a fold from the launch memory (`Gen.W0` … `Gen.W18`).
  Every weakly fair execution terminates without a fault, and at the end every unscoped buffer of a core holds
  what the last boundary of that fold says: in particular the result buffer holds `Gen.W18` at the result's
  reference, and each argument its launch contents.
-/
import proofs.«102883_j78546361909653_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the whole program: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v102) = W18 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v102 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c),
       (h c _ (mem_uc main_arg10 (by decide))).trans (W18_main_arg10 m ρ c),
       (h c _ (mem_uc main_arg11 (by decide))).trans (W18_main_arg11 m ρ c),
       (h c _ (mem_uc main_arg12 (by decide))).trans (W18_main_arg12 m ρ c),
       (h c _ (mem_uc main_arg13 (by decide))).trans (W18_main_arg13 m ρ c),
       (h c _ (mem_uc main_arg14 (by decide))).trans (W18_main_arg14 m ρ c),
       (h c _ (mem_uc main_arg15 (by decide))).trans (W18_main_arg15 m ρ c)⟩)

end Cert.KernelIdeal.KRun

end
-- ==== Proof.Fold.lean ====
/-
  The kernel program's buffers along the run, part one: the arrays that stay fixed.  The boundary contents `Gen.W0` …
  `Gen.W18` are a fold through the program's host stretches and regions.  No operation writes an argument, so an argument
  read at any boundary is its launch contents; the edge lists with self-loops appended (source `%3`, destination `%6`)
  and the symmetric edge norms (`%31`: the in-degree by a scatter-add of ones, its inverse square root where positive,
  gathered at both ends of each edge and multiplied) are computed once before the first region by the same host
  operations the reference applies, so they are the reference's stages of the edge list, and no later operation
  writes them.
-/
import proofs.«102883_j78546361909653_1_alg».proof.Proof.Gen.KernelIdeal.Frame
import proofs.«102883_j78546361909653_1_alg».proof.Proof.RefReadP
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- A stretch of host operations leaves a buffer none of them writes as it was. -/
macro "host_untouched" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

theorem arg0_at3 : W3 m ρ c (Proc.devRef .tc main_arg0) = (m ((c : Thread nD τ).loc main_arg0)) :=
  ((by host_untouched hostOps0_2 : W3 m ρ c (Proc.devRef .tc main_arg0) = W2 m ρ c (Proc.devRef .tc main_arg0)).trans ((by host_untouched hostOps0_1 : W2 m ρ c (Proc.devRef .tc main_arg0) = W1 m ρ c (Proc.devRef .tc main_arg0)).trans (by host_untouched hostOps0 : W1 m ρ c (Proc.devRef .tc main_arg0) = W0 m ρ c (Proc.devRef .tc main_arg0)))).trans rfl

theorem arg2_at3 : W3 m ρ c (Proc.devRef .tc main_arg2) = (m ((c : Thread nD τ).loc main_arg2)) :=
  ((by host_untouched hostOps0_2 : W3 m ρ c (Proc.devRef .tc main_arg2) = W2 m ρ c (Proc.devRef .tc main_arg2)).trans ((by host_untouched hostOps0_1 : W2 m ρ c (Proc.devRef .tc main_arg2) = W1 m ρ c (Proc.devRef .tc main_arg2)).trans (by host_untouched hostOps0 : W1 m ρ c (Proc.devRef .tc main_arg2) = W0 m ρ c (Proc.devRef .tc main_arg2)))).trans rfl

theorem arg4_at3 : W3 m ρ c (Proc.devRef .tc main_arg4) = (m ((c : Thread nD τ).loc main_arg4)) :=
  ((by host_untouched hostOps0_2 : W3 m ρ c (Proc.devRef .tc main_arg4) = W2 m ρ c (Proc.devRef .tc main_arg4)).trans ((by host_untouched hostOps0_1 : W2 m ρ c (Proc.devRef .tc main_arg4) = W1 m ρ c (Proc.devRef .tc main_arg4)).trans (by host_untouched hostOps0 : W1 m ρ c (Proc.devRef .tc main_arg4) = W0 m ρ c (Proc.devRef .tc main_arg4)))).trans rfl

theorem arg6_at4 : W4 m ρ c (Proc.devRef .tc main_arg6) = (m ((c : Thread nD τ).loc main_arg6)) :=
  ((W4_of_ne m ρ c main_arg6 (by decide)).trans ((by host_untouched hostOps0_2 : W3 m ρ c (Proc.devRef .tc main_arg6) = W2 m ρ c (Proc.devRef .tc main_arg6)).trans ((by host_untouched hostOps0_1 : W2 m ρ c (Proc.devRef .tc main_arg6) = W1 m ρ c (Proc.devRef .tc main_arg6)).trans (by host_untouched hostOps0 : W1 m ρ c (Proc.devRef .tc main_arg6) = W0 m ρ c (Proc.devRef .tc main_arg6))))).trans rfl

theorem arg7_at5 : W5 m ρ c (Proc.devRef .tc main_arg7) = (m ((c : Thread nD τ).loc main_arg7)) :=
  ((W5_of_ne m ρ c main_arg7 (by decide)).trans ((W4_of_ne m ρ c main_arg7 (by decide)).trans ((by host_untouched hostOps0_2 : W3 m ρ c (Proc.devRef .tc main_arg7) = W2 m ρ c (Proc.devRef .tc main_arg7)).trans ((by host_untouched hostOps0_1 : W2 m ρ c (Proc.devRef .tc main_arg7) = W1 m ρ c (Proc.devRef .tc main_arg7)).trans (by host_untouched hostOps0 : W1 m ρ c (Proc.devRef .tc main_arg7) = W0 m ρ c (Proc.devRef .tc main_arg7)))))).trans rfl

theorem arg8_at7 : W7 m ρ c (Proc.devRef .tc main_arg8) = (m ((c : Thread nD τ).loc main_arg8)) :=
  ((W7_of_ne m ρ c main_arg8 (by decide)).trans ((by host_untouched hostOps2 : W6 m ρ c (Proc.devRef .tc main_arg8) = W5 m ρ c (Proc.devRef .tc main_arg8)).trans ((W5_of_ne m ρ c main_arg8 (by decide)).trans ((W4_of_ne m ρ c main_arg8 (by decide)).trans ((by host_untouched hostOps0_2 : W3 m ρ c (Proc.devRef .tc main_arg8) = W2 m ρ c (Proc.devRef .tc main_arg8)).trans ((by host_untouched hostOps0_1 : W2 m ρ c (Proc.devRef .tc main_arg8) = W1 m ρ c (Proc.devRef .tc main_arg8)).trans (by host_untouched hostOps0 : W1 m ρ c (Proc.devRef .tc main_arg8) = W0 m ρ c (Proc.devRef .tc main_arg8)))))))).trans rfl

theorem arg9_at8 : W8 m ρ c (Proc.devRef .tc main_arg9) = (m ((c : Thread nD τ).loc main_arg9)) :=
  ((W8_of_ne m ρ c main_arg9 (by decide)).trans ((W7_of_ne m ρ c main_arg9 (by decide)).trans ((by host_untouched hostOps2 : W6 m ρ c (Proc.devRef .tc main_arg9) = W5 m ρ c (Proc.devRef .tc main_arg9)).trans ((W5_of_ne m ρ c main_arg9 (by decide)).trans ((W4_of_ne m ρ c main_arg9 (by decide)).trans ((by host_untouched hostOps0_2 : W3 m ρ c (Proc.devRef .tc main_arg9) = W2 m ρ c (Proc.devRef .tc main_arg9)).trans ((by host_untouched hostOps0_1 : W2 m ρ c (Proc.devRef .tc main_arg9) = W1 m ρ c (Proc.devRef .tc main_arg9)).trans (by host_untouched hostOps0 : W1 m ρ c (Proc.devRef .tc main_arg9) = W0 m ρ c (Proc.devRef .tc main_arg9))))))))).trans rfl

theorem arg10_at10 : W10 m ρ c (Proc.devRef .tc main_arg10) = (m ((c : Thread nD τ).loc main_arg10)) :=
  ((W10_of_ne m ρ c main_arg10 (by decide)).trans ((by host_untouched hostOps4 : W9 m ρ c (Proc.devRef .tc main_arg10) = W8 m ρ c (Proc.devRef .tc main_arg10)).trans ((W8_of_ne m ρ c main_arg10 (by decide)).trans ((W7_of_ne m ρ c main_arg10 (by decide)).trans ((by host_untouched hostOps2 : W6 m ρ c (Proc.devRef .tc main_arg10) = W5 m ρ c (Proc.devRef .tc main_arg10)).trans ((W5_of_ne m ρ c main_arg10 (by decide)).trans ((W4_of_ne m ρ c main_arg10 (by decide)).trans ((by host_untouched hostOps0_2 : W3 m ρ c (Proc.devRef .tc main_arg10) = W2 m ρ c (Proc.devRef .tc main_arg10)).trans ((by host_untouched hostOps0_1 : W2 m ρ c (Proc.devRef .tc main_arg10) = W1 m ρ c (Proc.devRef .tc main_arg10)).trans (by host_untouched hostOps0 : W1 m ρ c (Proc.devRef .tc main_arg10) = W0 m ρ c (Proc.devRef .tc main_arg10))))))))))).trans rfl

theorem arg11_at11 : W11 m ρ c (Proc.devRef .tc main_arg11) = (m ((c : Thread nD τ).loc main_arg11)) :=
  ((W11_of_ne m ρ c main_arg11 (by decide)).trans ((W10_of_ne m ρ c main_arg11 (by decide)).trans ((by host_untouched hostOps4 : W9 m ρ c (Proc.devRef .tc main_arg11) = W8 m ρ c (Proc.devRef .tc main_arg11)).trans ((W8_of_ne m ρ c main_arg11 (by decide)).trans ((W7_of_ne m ρ c main_arg11 (by decide)).trans ((by host_untouched hostOps2 : W6 m ρ c (Proc.devRef .tc main_arg11) = W5 m ρ c (Proc.devRef .tc main_arg11)).trans ((W5_of_ne m ρ c main_arg11 (by decide)).trans ((W4_of_ne m ρ c main_arg11 (by decide)).trans ((by host_untouched hostOps0_2 : W3 m ρ c (Proc.devRef .tc main_arg11) = W2 m ρ c (Proc.devRef .tc main_arg11)).trans ((by host_untouched hostOps0_1 : W2 m ρ c (Proc.devRef .tc main_arg11) = W1 m ρ c (Proc.devRef .tc main_arg11)).trans (by host_untouched hostOps0 : W1 m ρ c (Proc.devRef .tc main_arg11) = W0 m ρ c (Proc.devRef .tc main_arg11)))))))))))).trans rfl

theorem arg12_at13 : W13 m ρ c (Proc.devRef .tc main_arg12) = (m ((c : Thread nD τ).loc main_arg12)) :=
  ((W13_of_ne m ρ c main_arg12 (by decide)).trans ((by host_untouched hostOps6 : W12 m ρ c (Proc.devRef .tc main_arg12) = W11 m ρ c (Proc.devRef .tc main_arg12)).trans ((W11_of_ne m ρ c main_arg12 (by decide)).trans ((W10_of_ne m ρ c main_arg12 (by decide)).trans ((by host_untouched hostOps4 : W9 m ρ c (Proc.devRef .tc main_arg12) = W8 m ρ c (Proc.devRef .tc main_arg12)).trans ((W8_of_ne m ρ c main_arg12 (by decide)).trans ((W7_of_ne m ρ c main_arg12 (by decide)).trans ((by host_untouched hostOps2 : W6 m ρ c (Proc.devRef .tc main_arg12) = W5 m ρ c (Proc.devRef .tc main_arg12)).trans ((W5_of_ne m ρ c main_arg12 (by decide)).trans ((W4_of_ne m ρ c main_arg12 (by decide)).trans ((by host_untouched hostOps0_2 : W3 m ρ c (Proc.devRef .tc main_arg12) = W2 m ρ c (Proc.devRef .tc main_arg12)).trans ((by host_untouched hostOps0_1 : W2 m ρ c (Proc.devRef .tc main_arg12) = W1 m ρ c (Proc.devRef .tc main_arg12)).trans (by host_untouched hostOps0 : W1 m ρ c (Proc.devRef .tc main_arg12) = W0 m ρ c (Proc.devRef .tc main_arg12)))))))))))))).trans rfl

theorem arg13_at14 : W14 m ρ c (Proc.devRef .tc main_arg13) = (m ((c : Thread nD τ).loc main_arg13)) :=
  ((W14_of_ne m ρ c main_arg13 (by decide)).trans ((W13_of_ne m ρ c main_arg13 (by decide)).trans ((by host_untouched hostOps6 : W12 m ρ c (Proc.devRef .tc main_arg13) = W11 m ρ c (Proc.devRef .tc main_arg13)).trans ((W11_of_ne m ρ c main_arg13 (by decide)).trans ((W10_of_ne m ρ c main_arg13 (by decide)).trans ((by host_untouched hostOps4 : W9 m ρ c (Proc.devRef .tc main_arg13) = W8 m ρ c (Proc.devRef .tc main_arg13)).trans ((W8_of_ne m ρ c main_arg13 (by decide)).trans ((W7_of_ne m ρ c main_arg13 (by decide)).trans ((by host_untouched hostOps2 : W6 m ρ c (Proc.devRef .tc main_arg13) = W5 m ρ c (Proc.devRef .tc main_arg13)).trans ((W5_of_ne m ρ c main_arg13 (by decide)).trans ((W4_of_ne m ρ c main_arg13 (by decide)).trans ((by host_untouched hostOps0_2 : W3 m ρ c (Proc.devRef .tc main_arg13) = W2 m ρ c (Proc.devRef .tc main_arg13)).trans ((by host_untouched hostOps0_1 : W2 m ρ c (Proc.devRef .tc main_arg13) = W1 m ρ c (Proc.devRef .tc main_arg13)).trans (by host_untouched hostOps0 : W1 m ρ c (Proc.devRef .tc main_arg13) = W0 m ρ c (Proc.devRef .tc main_arg13))))))))))))))).trans rfl

theorem arg15_at16 : W16 m ρ c (Proc.devRef .tc main_arg15) = (m ((c : Thread nD τ).loc main_arg15)) :=
  ((W16_of_ne m ρ c main_arg15 (by decide)).trans ((by host_untouched hostOps8 : W15 m ρ c (Proc.devRef .tc main_arg15) = W14 m ρ c (Proc.devRef .tc main_arg15)).trans ((W14_of_ne m ρ c main_arg15 (by decide)).trans ((W13_of_ne m ρ c main_arg15 (by decide)).trans ((by host_untouched hostOps6 : W12 m ρ c (Proc.devRef .tc main_arg15) = W11 m ρ c (Proc.devRef .tc main_arg15)).trans ((W11_of_ne m ρ c main_arg15 (by decide)).trans ((W10_of_ne m ρ c main_arg15 (by decide)).trans ((by host_untouched hostOps4 : W9 m ρ c (Proc.devRef .tc main_arg15) = W8 m ρ c (Proc.devRef .tc main_arg15)).trans ((W8_of_ne m ρ c main_arg15 (by decide)).trans ((W7_of_ne m ρ c main_arg15 (by decide)).trans ((by host_untouched hostOps2 : W6 m ρ c (Proc.devRef .tc main_arg15) = W5 m ρ c (Proc.devRef .tc main_arg15)).trans ((W5_of_ne m ρ c main_arg15 (by decide)).trans ((W4_of_ne m ρ c main_arg15 (by decide)).trans ((by host_untouched hostOps0_2 : W3 m ρ c (Proc.devRef .tc main_arg15) = W2 m ρ c (Proc.devRef .tc main_arg15)).trans ((by host_untouched hostOps0_1 : W2 m ρ c (Proc.devRef .tc main_arg15) = W1 m ρ c (Proc.devRef .tc main_arg15)).trans (by host_untouched hostOps0 : W1 m ρ c (Proc.devRef .tc main_arg15) = W0 m ρ c (Proc.devRef .tc main_arg15))))))))))))))))).trans rfl

theorem arg14_at17 : W17 m ρ c (Proc.devRef .tc main_arg14) = (m ((c : Thread nD τ).loc main_arg14)) :=
  ((by host_untouched hostOps9 : W17 m ρ c (Proc.devRef .tc main_arg14) = W16 m ρ c (Proc.devRef .tc main_arg14)).trans ((W16_of_ne m ρ c main_arg14 (by decide)).trans ((by host_untouched hostOps8 : W15 m ρ c (Proc.devRef .tc main_arg14) = W14 m ρ c (Proc.devRef .tc main_arg14)).trans ((W14_of_ne m ρ c main_arg14 (by decide)).trans ((W13_of_ne m ρ c main_arg14 (by decide)).trans ((by host_untouched hostOps6 : W12 m ρ c (Proc.devRef .tc main_arg14) = W11 m ρ c (Proc.devRef .tc main_arg14)).trans ((W11_of_ne m ρ c main_arg14 (by decide)).trans ((W10_of_ne m ρ c main_arg14 (by decide)).trans ((by host_untouched hostOps4 : W9 m ρ c (Proc.devRef .tc main_arg14) = W8 m ρ c (Proc.devRef .tc main_arg14)).trans ((W8_of_ne m ρ c main_arg14 (by decide)).trans ((W7_of_ne m ρ c main_arg14 (by decide)).trans ((by host_untouched hostOps2 : W6 m ρ c (Proc.devRef .tc main_arg14) = W5 m ρ c (Proc.devRef .tc main_arg14)).trans ((W5_of_ne m ρ c main_arg14 (by decide)).trans ((W4_of_ne m ρ c main_arg14 (by decide)).trans ((by host_untouched hostOps0_2 : W3 m ρ c (Proc.devRef .tc main_arg14) = W2 m ρ c (Proc.devRef .tc main_arg14)).trans ((by host_untouched hostOps0_1 : W2 m ρ c (Proc.devRef .tc main_arg14) = W1 m ρ c (Proc.devRef .tc main_arg14)).trans (by host_untouched hostOps0 : W1 m ρ c (Proc.devRef .tc main_arg14) = W0 m ρ c (Proc.devRef .tc main_arg14)))))))))))))))))).trans rfl

set_option maxHeartbeats 4000000 in
theorem v3_at3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results_simp
  rfl

set_option maxHeartbeats 4000000 in
theorem v6_at3 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results_simp
  rfl

/-! ## The typed references of the called function's operations

A value passed into or out of the called `where` function is transported between "contents at the value's type"
and "contents of its buffer"; the two types are the same, and the transports are the identity. -/

theorem ofBuf_toBuf_id {T : BufTy} (x : TRef sig T) (v : T.Contents (Elt Ideal)) : x.ofBuf (x.toBuf v) = v := by
  obtain ⟨r, h, h1, h2⟩ := x
  subst h
  rfl
theorem ofBuf_v12 (Z : (⟨S50000, .i1⟩ : BufTy).Contents (Elt Ideal)) :
    (TRef.of (sig := sig) (T := ⟨S50000, .i1⟩) main_v12).ofBuf (Val := Elt Ideal) Z = Z := rfl
theorem ofBuf_v15 (Z : (⟨S50000, .f32⟩ : BufTy).Contents (Elt Ideal)) :
    (TRef.of (sig := sig) (T := ⟨S50000, .f32⟩) main_v15).ofBuf (Val := Elt Ideal) Z = Z := rfl
theorem ofBuf_cst3 (Z : (⟨S_, .f32⟩ : BufTy).Contents (Elt Ideal)) :
    (TRef.of (sig := sig) (T := ⟨S_, .f32⟩) main_cst_3).ofBuf (Val := Elt Ideal) Z = Z := rfl
theorem toBuf_v16 (Z : (⟨S50000, .f32⟩ : BufTy).Contents (Elt Ideal)) :
    (TRef.of (sig := sig) (T := ⟨S50000, .f32⟩) main_v16).toBuf (Val := Elt Ideal) Z = Z := rfl

set_option maxHeartbeats 8000000 in
/-- The edge norms before the first region: the reference's stage `%41` of the edge list (the same host operations;
    the two edge lists with self-loops are first named as the reference's stages). -/
theorem norm_at3 : W3 m ρ c (Proc.devRef .tc main_v31) = Cert.ReferenceIdeal.ReadP.val_main_v41 (F := Ideal) (m ((c : Thread nD τ).loc main_arg1)) := by
  have h3 := v3_at3 m ρ c
  have h6 := v6_at3 m ρ c
  change StableHlo.after hostOps0_2 (StableHlo.after hostOps0_1 (StableHlo.after hostOps0 (W0 m ρ c))) (Proc.devRef .tc main_v3) = _ at h3
  change StableHlo.after hostOps0_2 (StableHlo.after hostOps0_1 (StableHlo.after hostOps0 (W0 m ρ c))) (Proc.devRef .tc main_v6) = _ at h6
  simp (disch := decide) only [after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne'] at h3 h6
  show StableHlo.after hostOps0_2 (StableHlo.after hostOps0_1 (StableHlo.after hostOps0 (W0 m ρ c))) (Proc.devRef .tc main_v31) = _
  after_results_simp
  rw [h3, h6]
  simp only [ofBuf_toBuf_id, ofBuf_v12, ofBuf_v15, ofBuf_cst3, toBuf_v16]
  rfl

set_option maxHeartbeats 4000000 in
theorem b32_at3 : W3 m ρ c (Proc.devRef .tc main_v32) = shapeCast S1x32 (m ((c : Thread nD τ).loc main_arg3)) shapeCasts_S32_S1x32 := by
  show StableHlo.after hostOps0_2 (StableHlo.after hostOps0_1 (StableHlo.after hostOps0 (W0 m ρ c))) (Proc.devRef .tc main_v32) = _
  after_results_simp
  rfl

set_option maxHeartbeats 4000000 in
theorem b64_at3 : W3 m ρ c (Proc.devRef .tc main_v33) = shapeCast S1x64 (m ((c : Thread nD τ).loc main_arg5)) shapeCasts_S64_S1x64 := by
  show StableHlo.after hostOps0_2 (StableHlo.after hostOps0_1 (StableHlo.after hostOps0 (W0 m ρ c))) (Proc.devRef .tc main_v33) = _
  after_results_simp
  rfl

theorem v3_at5 : W5 m ρ c (Proc.devRef .tc main_v3) = Cert.ReferenceIdeal.ReadP.val_main_v3 (F := Ideal) (m ((c : Thread nD τ).loc main_arg1)) :=
  ((W5_of_ne m ρ c main_v3 (by decide)).trans (W4_of_ne m ρ c main_v3 (by decide))).trans (v3_at3 m ρ c)

theorem v6_at5 : W5 m ρ c (Proc.devRef .tc main_v6) = Cert.ReferenceIdeal.ReadP.val_main_v6 (F := Ideal) (m ((c : Thread nD τ).loc main_arg1)) :=
  ((W5_of_ne m ρ c main_v6 (by decide)).trans (W4_of_ne m ρ c main_v6 (by decide))).trans (v6_at3 m ρ c)

theorem norm_at5 : W5 m ρ c (Proc.devRef .tc main_v31) = Cert.ReferenceIdeal.ReadP.val_main_v41 (F := Ideal) (m ((c : Thread nD τ).loc main_arg1)) :=
  ((W5_of_ne m ρ c main_v31 (by decide)).trans (W4_of_ne m ρ c main_v31 (by decide))).trans (norm_at3 m ρ c)

theorem v3_at8 : W8 m ρ c (Proc.devRef .tc main_v3) = Cert.ReferenceIdeal.ReadP.val_main_v3 (F := Ideal) (m ((c : Thread nD τ).loc main_arg1)) :=
  ((W8_of_ne m ρ c main_v3 (by decide)).trans ((W7_of_ne m ρ c main_v3 (by decide)).trans ((by host_untouched hostOps2 : W6 m ρ c (Proc.devRef .tc main_v3) = W5 m ρ c (Proc.devRef .tc main_v3)).trans ((W5_of_ne m ρ c main_v3 (by decide)).trans (W4_of_ne m ρ c main_v3 (by decide)))))).trans (v3_at3 m ρ c)

theorem v6_at8 : W8 m ρ c (Proc.devRef .tc main_v6) = Cert.ReferenceIdeal.ReadP.val_main_v6 (F := Ideal) (m ((c : Thread nD τ).loc main_arg1)) :=
  ((W8_of_ne m ρ c main_v6 (by decide)).trans ((W7_of_ne m ρ c main_v6 (by decide)).trans ((by host_untouched hostOps2 : W6 m ρ c (Proc.devRef .tc main_v6) = W5 m ρ c (Proc.devRef .tc main_v6)).trans ((W5_of_ne m ρ c main_v6 (by decide)).trans (W4_of_ne m ρ c main_v6 (by decide)))))).trans (v6_at3 m ρ c)

theorem norm_at8 : W8 m ρ c (Proc.devRef .tc main_v31) = Cert.ReferenceIdeal.ReadP.val_main_v41 (F := Ideal) (m ((c : Thread nD τ).loc main_arg1)) :=
  ((W8_of_ne m ρ c main_v31 (by decide)).trans ((W7_of_ne m ρ c main_v31 (by decide)).trans ((by host_untouched hostOps2 : W6 m ρ c (Proc.devRef .tc main_v31) = W5 m ρ c (Proc.devRef .tc main_v31)).trans ((W5_of_ne m ρ c main_v31 (by decide)).trans (W4_of_ne m ρ c main_v31 (by decide)))))).trans (norm_at3 m ρ c)

theorem v3_at11 : W11 m ρ c (Proc.devRef .tc main_v3) = Cert.ReferenceIdeal.ReadP.val_main_v3 (F := Ideal) (m ((c : Thread nD τ).loc main_arg1)) :=
  ((W11_of_ne m ρ c main_v3 (by decide)).trans ((W10_of_ne m ρ c main_v3 (by decide)).trans ((by host_untouched hostOps4 : W9 m ρ c (Proc.devRef .tc main_v3) = W8 m ρ c (Proc.devRef .tc main_v3)).trans ((W8_of_ne m ρ c main_v3 (by decide)).trans ((W7_of_ne m ρ c main_v3 (by decide)).trans ((by host_untouched hostOps2 : W6 m ρ c (Proc.devRef .tc main_v3) = W5 m ρ c (Proc.devRef .tc main_v3)).trans ((W5_of_ne m ρ c main_v3 (by decide)).trans (W4_of_ne m ρ c main_v3 (by decide))))))))).trans (v3_at3 m ρ c)

theorem v6_at11 : W11 m ρ c (Proc.devRef .tc main_v6) = Cert.ReferenceIdeal.ReadP.val_main_v6 (F := Ideal) (m ((c : Thread nD τ).loc main_arg1)) :=
  ((W11_of_ne m ρ c main_v6 (by decide)).trans ((W10_of_ne m ρ c main_v6 (by decide)).trans ((by host_untouched hostOps4 : W9 m ρ c (Proc.devRef .tc main_v6) = W8 m ρ c (Proc.devRef .tc main_v6)).trans ((W8_of_ne m ρ c main_v6 (by decide)).trans ((W7_of_ne m ρ c main_v6 (by decide)).trans ((by host_untouched hostOps2 : W6 m ρ c (Proc.devRef .tc main_v6) = W5 m ρ c (Proc.devRef .tc main_v6)).trans ((W5_of_ne m ρ c main_v6 (by decide)).trans (W4_of_ne m ρ c main_v6 (by decide))))))))).trans (v6_at3 m ρ c)

theorem norm_at11 : W11 m ρ c (Proc.devRef .tc main_v31) = Cert.ReferenceIdeal.ReadP.val_main_v41 (F := Ideal) (m ((c : Thread nD τ).loc main_arg1)) :=
  ((W11_of_ne m ρ c main_v31 (by decide)).trans ((W10_of_ne m ρ c main_v31 (by decide)).trans ((by host_untouched hostOps4 : W9 m ρ c (Proc.devRef .tc main_v31) = W8 m ρ c (Proc.devRef .tc main_v31)).trans ((W8_of_ne m ρ c main_v31 (by decide)).trans ((W7_of_ne m ρ c main_v31 (by decide)).trans ((by host_untouched hostOps2 : W6 m ρ c (Proc.devRef .tc main_v31) = W5 m ρ c (Proc.devRef .tc main_v31)).trans ((W5_of_ne m ρ c main_v31 (by decide)).trans (W4_of_ne m ρ c main_v31 (by decide))))))))).trans (norm_at3 m ρ c)

theorem v3_at14 : W14 m ρ c (Proc.devRef .tc main_v3) = Cert.ReferenceIdeal.ReadP.val_main_v3 (F := Ideal) (m ((c : Thread nD τ).loc main_arg1)) :=
  ((W14_of_ne m ρ c main_v3 (by decide)).trans ((W13_of_ne m ρ c main_v3 (by decide)).trans ((by host_untouched hostOps6 : W12 m ρ c (Proc.devRef .tc main_v3) = W11 m ρ c (Proc.devRef .tc main_v3)).trans ((W11_of_ne m ρ c main_v3 (by decide)).trans ((W10_of_ne m ρ c main_v3 (by decide)).trans ((by host_untouched hostOps4 : W9 m ρ c (Proc.devRef .tc main_v3) = W8 m ρ c (Proc.devRef .tc main_v3)).trans ((W8_of_ne m ρ c main_v3 (by decide)).trans ((W7_of_ne m ρ c main_v3 (by decide)).trans ((by host_untouched hostOps2 : W6 m ρ c (Proc.devRef .tc main_v3) = W5 m ρ c (Proc.devRef .tc main_v3)).trans ((W5_of_ne m ρ c main_v3 (by decide)).trans (W4_of_ne m ρ c main_v3 (by decide)))))))))))).trans (v3_at3 m ρ c)

theorem v6_at14 : W14 m ρ c (Proc.devRef .tc main_v6) = Cert.ReferenceIdeal.ReadP.val_main_v6 (F := Ideal) (m ((c : Thread nD τ).loc main_arg1)) :=
  ((W14_of_ne m ρ c main_v6 (by decide)).trans ((W13_of_ne m ρ c main_v6 (by decide)).trans ((by host_untouched hostOps6 : W12 m ρ c (Proc.devRef .tc main_v6) = W11 m ρ c (Proc.devRef .tc main_v6)).trans ((W11_of_ne m ρ c main_v6 (by decide)).trans ((W10_of_ne m ρ c main_v6 (by decide)).trans ((by host_untouched hostOps4 : W9 m ρ c (Proc.devRef .tc main_v6) = W8 m ρ c (Proc.devRef .tc main_v6)).trans ((W8_of_ne m ρ c main_v6 (by decide)).trans ((W7_of_ne m ρ c main_v6 (by decide)).trans ((by host_untouched hostOps2 : W6 m ρ c (Proc.devRef .tc main_v6) = W5 m ρ c (Proc.devRef .tc main_v6)).trans ((W5_of_ne m ρ c main_v6 (by decide)).trans (W4_of_ne m ρ c main_v6 (by decide)))))))))))).trans (v6_at3 m ρ c)

theorem norm_at14 : W14 m ρ c (Proc.devRef .tc main_v31) = Cert.ReferenceIdeal.ReadP.val_main_v41 (F := Ideal) (m ((c : Thread nD τ).loc main_arg1)) :=
  ((W14_of_ne m ρ c main_v31 (by decide)).trans ((W13_of_ne m ρ c main_v31 (by decide)).trans ((by host_untouched hostOps6 : W12 m ρ c (Proc.devRef .tc main_v31) = W11 m ρ c (Proc.devRef .tc main_v31)).trans ((W11_of_ne m ρ c main_v31 (by decide)).trans ((W10_of_ne m ρ c main_v31 (by decide)).trans ((by host_untouched hostOps4 : W9 m ρ c (Proc.devRef .tc main_v31) = W8 m ρ c (Proc.devRef .tc main_v31)).trans ((W8_of_ne m ρ c main_v31 (by decide)).trans ((W7_of_ne m ρ c main_v31 (by decide)).trans ((by host_untouched hostOps2 : W6 m ρ c (Proc.devRef .tc main_v31) = W5 m ρ c (Proc.devRef .tc main_v31)).trans ((W5_of_ne m ρ c main_v31 (by decide)).trans (W4_of_ne m ρ c main_v31 (by decide)))))))))))).trans (norm_at3 m ρ c)

end Cert.KernelIdeal.Fold

end
-- ==== Proof.RefDotAt.lean ====
/-
  The four matrix products of the reference program, each read at an index at the ideal instance.  The host's
  `dot_general` of `[M, K]` and `[K, N]` operands is, at row `r` and column `s`, the sum over `k < K` of the left
  operand at `(r, k)` times the right operand at `(k, s)`.
-/
import proofs.«102883_j78546361909653_1_alg».proof.Proof.Gen.ReferenceIdeal
import Idealize.ShloMosaic.Lib.ValueIdx
import Idealize.ShloMosaic.PureOps.Ideal.Laws

noncomputable section

namespace Cert.ReferenceIdeal.DotAt

open Idealize.ShloMosaic Idealize.ShloMosaic.ValueIdx Cert.ReferenceIdeal Cert.ReferenceIdeal.Gen

/-! ### `S50000x32` = `S50000x128` · `S128x32` -/

theorem a_lhs0 (i : S50000x32.Idx) (q : dot_S50000x128_S128x32_S50000x32_1_0_0_1_n_n.contr.Idx) : (dot_S50000x128_S128x32_S50000x32_1_0_0_1_n_n.lhsIdx i q 0).val = (i 0).val := by
  unfold DotDims.lhsIdx
  rw [dif_neg (show ¬(0 : Fin S50000x128.rank) ∈ dot_S50000x128_S128x32_S50000x32_1_0_0_1_n_n.lhsBatch by decide), dif_pos (show (0 : Fin S50000x128.rank) ∈ dot_S50000x128_S128x32_S50000x32_1_0_0_1_n_n.lhsNonContracting by decide)]
  rfl
theorem a_lhs1 (i : S50000x32.Idx) (q : dot_S50000x128_S128x32_S50000x32_1_0_0_1_n_n.contr.Idx) : (dot_S50000x128_S128x32_S50000x32_1_0_0_1_n_n.lhsIdx i q 1).val = (q ⟨0, by decide⟩).val :=
  dot_S50000x128_S128x32_S50000x32_1_0_0_1_n_n.lhsIdx_val_of_single rfl i q
theorem a_rhs0 (i : S50000x32.Idx) (q : dot_S50000x128_S128x32_S50000x32_1_0_0_1_n_n.contr.Idx) : (dot_S50000x128_S128x32_S50000x32_1_0_0_1_n_n.rhsIdx i q 0).val = (q ⟨0, by decide⟩).val :=
  dot_S50000x128_S128x32_S50000x32_1_0_0_1_n_n.rhsIdx_val_of_single rfl i q
theorem a_rhs1 (i : S50000x32.Idx) (q : dot_S50000x128_S128x32_S50000x32_1_0_0_1_n_n.contr.Idx) : (dot_S50000x128_S128x32_S50000x32_1_0_0_1_n_n.rhsIdx i q 1).val = (i 1).val := by
  unfold DotDims.rhsIdx
  rw [dif_neg (show ¬(1 : Fin S128x32.rank) ∈ dot_S50000x128_S128x32_S50000x32_1_0_0_1_n_n.rhsBatch by decide), dif_pos (show (1 : Fin S128x32.rank) ∈ dot_S50000x128_S128x32_S50000x32_1_0_0_1_n_n.rhsNonContracting by decide)]
  rfl

/-- The host's product at row `i 0` and column `i 1`: the sum over the 128 contracted positions `k` of the left
    factor at `(i 0, k)` times the right factor at `(k, i 1)`. -/
theorem a_apply {φ₁ φ₂ : FTy} (x : FVec Ideal S50000x128 φ₁) (w : FVec Ideal S128x32 φ₂) (i : S50000x32.Idx) :
    Host.dotGeneral dot_S50000x128_S128x32_S50000x32_1_0_0_1_n_n none x w i
      = ∑ k : Fin 128, (x (ix2 (i 0) k) : EReal) * (w (ix2 k (i 1)) : EReal) := by
  simp only [Host.dotGeneral]
  rw [Ideal.dotGeneral_apply, ← Equiv.sum_comp (ValueIdx.contrEquiv1 dot_S50000x128_S128x32_S50000x32_1_0_0_1_n_n 128 rfl rfl).symm]
  refine Finset.sum_congr rfl fun k _ => ?_
  have hk := ValueIdx.contrEquiv1_symm_val dot_S50000x128_S128x32_S50000x32_1_0_0_1_n_n 128 rfl rfl k
  have el : dot_S50000x128_S128x32_S50000x32_1_0_0_1_n_n.lhsIdx i ((ValueIdx.contrEquiv1 dot_S50000x128_S128x32_S50000x32_1_0_0_1_n_n 128 rfl rfl).symm k) = ix2 (i 0) k := funext fun a => Fin.ext (by
    match a with
    | ⟨0, _⟩ => exact a_lhs0 _ _
    | ⟨1, _⟩ => exact (a_lhs1 _ _).trans hk)
  have er : dot_S50000x128_S128x32_S50000x32_1_0_0_1_n_n.rhsIdx i ((ValueIdx.contrEquiv1 dot_S50000x128_S128x32_S50000x32_1_0_0_1_n_n 128 rfl rfl).symm k) = ix2 k (i 1) := funext fun a => Fin.ext (by
    match a with
    | ⟨0, _⟩ => exact (a_rhs0 _ _).trans hk
    | ⟨1, _⟩ => exact a_rhs1 _ _)
  rw [el, er]
  try rfl

/-! ### `S50000x64` = `S50000x32` · `S32x64` -/

theorem b_lhs0 (i : S50000x64.Idx) (q : dot_S50000x32_S32x64_S50000x64_1_0_0_1_n_n.contr.Idx) : (dot_S50000x32_S32x64_S50000x64_1_0_0_1_n_n.lhsIdx i q 0).val = (i 0).val := by
  unfold DotDims.lhsIdx
  rw [dif_neg (show ¬(0 : Fin S50000x32.rank) ∈ dot_S50000x32_S32x64_S50000x64_1_0_0_1_n_n.lhsBatch by decide), dif_pos (show (0 : Fin S50000x32.rank) ∈ dot_S50000x32_S32x64_S50000x64_1_0_0_1_n_n.lhsNonContracting by decide)]
  rfl
theorem b_lhs1 (i : S50000x64.Idx) (q : dot_S50000x32_S32x64_S50000x64_1_0_0_1_n_n.contr.Idx) : (dot_S50000x32_S32x64_S50000x64_1_0_0_1_n_n.lhsIdx i q 1).val = (q ⟨0, by decide⟩).val :=
  dot_S50000x32_S32x64_S50000x64_1_0_0_1_n_n.lhsIdx_val_of_single rfl i q
theorem b_rhs0 (i : S50000x64.Idx) (q : dot_S50000x32_S32x64_S50000x64_1_0_0_1_n_n.contr.Idx) : (dot_S50000x32_S32x64_S50000x64_1_0_0_1_n_n.rhsIdx i q 0).val = (q ⟨0, by decide⟩).val :=
  dot_S50000x32_S32x64_S50000x64_1_0_0_1_n_n.rhsIdx_val_of_single rfl i q
theorem b_rhs1 (i : S50000x64.Idx) (q : dot_S50000x32_S32x64_S50000x64_1_0_0_1_n_n.contr.Idx) : (dot_S50000x32_S32x64_S50000x64_1_0_0_1_n_n.rhsIdx i q 1).val = (i 1).val := by
  unfold DotDims.rhsIdx
  rw [dif_neg (show ¬(1 : Fin S32x64.rank) ∈ dot_S50000x32_S32x64_S50000x64_1_0_0_1_n_n.rhsBatch by decide), dif_pos (show (1 : Fin S32x64.rank) ∈ dot_S50000x32_S32x64_S50000x64_1_0_0_1_n_n.rhsNonContracting by decide)]
  rfl

/-- The host's product at row `i 0` and column `i 1`: the sum over the 32 contracted positions `k` of the left
    factor at `(i 0, k)` times the right factor at `(k, i 1)`. -/
theorem b_apply {φ₁ φ₂ : FTy} (x : FVec Ideal S50000x32 φ₁) (w : FVec Ideal S32x64 φ₂) (i : S50000x64.Idx) :
    Host.dotGeneral dot_S50000x32_S32x64_S50000x64_1_0_0_1_n_n none x w i
      = ∑ k : Fin 32, (x (ix2 (i 0) k) : EReal) * (w (ix2 k (i 1)) : EReal) := by
  simp only [Host.dotGeneral]
  rw [Ideal.dotGeneral_apply, ← Equiv.sum_comp (ValueIdx.contrEquiv1 dot_S50000x32_S32x64_S50000x64_1_0_0_1_n_n 32 rfl rfl).symm]
  refine Finset.sum_congr rfl fun k _ => ?_
  have hk := ValueIdx.contrEquiv1_symm_val dot_S50000x32_S32x64_S50000x64_1_0_0_1_n_n 32 rfl rfl k
  have el : dot_S50000x32_S32x64_S50000x64_1_0_0_1_n_n.lhsIdx i ((ValueIdx.contrEquiv1 dot_S50000x32_S32x64_S50000x64_1_0_0_1_n_n 32 rfl rfl).symm k) = ix2 (i 0) k := funext fun a => Fin.ext (by
    match a with
    | ⟨0, _⟩ => exact b_lhs0 _ _
    | ⟨1, _⟩ => exact (b_lhs1 _ _).trans hk)
  have er : dot_S50000x32_S32x64_S50000x64_1_0_0_1_n_n.rhsIdx i ((ValueIdx.contrEquiv1 dot_S50000x32_S32x64_S50000x64_1_0_0_1_n_n 32 rfl rfl).symm k) = ix2 k (i 1) := funext fun a => Fin.ext (by
    match a with
    | ⟨0, _⟩ => exact (b_rhs0 _ _).trans hk
    | ⟨1, _⟩ => exact b_rhs1 _ _)
  rw [el, er]
  try rfl

/-! ### `S50000x64` = `S50000x64` · `S64x64` -/

theorem c_lhs0 (i : S50000x64.Idx) (q : dot_S50000x64_S64x64_S50000x64_1_0_0_1_n_n.contr.Idx) : (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide), dif_pos (show (0 : Fin S50000x64.rank) ∈ dot_S50000x64_S64x64_S50000x64_1_0_0_1_n_n.lhsNonContracting by decide)]
  rfl
theorem c_lhs1 (i : S50000x64.Idx) (q : dot_S50000x64_S64x64_S50000x64_1_0_0_1_n_n.contr.Idx) : (dot_S50000x64_S64x64_S50000x64_1_0_0_1_n_n.lhsIdx i q 1).val = (q ⟨0, by decide⟩).val :=
  dot_S50000x64_S64x64_S50000x64_1_0_0_1_n_n.lhsIdx_val_of_single rfl i q
theorem c_rhs0 (i : S50000x64.Idx) (q : dot_S50000x64_S64x64_S50000x64_1_0_0_1_n_n.contr.Idx) : (dot_S50000x64_S64x64_S50000x64_1_0_0_1_n_n.rhsIdx i q 0).val = (q ⟨0, by decide⟩).val :=
  dot_S50000x64_S64x64_S50000x64_1_0_0_1_n_n.rhsIdx_val_of_single rfl i q
theorem c_rhs1 (i : S50000x64.Idx) (q : dot_S50000x64_S64x64_S50000x64_1_0_0_1_n_n.contr.Idx) : (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide), dif_pos (show (1 : Fin S64x64.rank) ∈ dot_S50000x64_S64x64_S50000x64_1_0_0_1_n_n.rhsNonContracting by decide)]
  rfl

/-- The host's product at row `i 0` and column `i 1`: the sum over the 64 contracted positions `k` of the left
    factor at `(i 0, k)` times the right factor at `(k, i 1)`. -/
theorem c_apply {φ₁ φ₂ : FTy} (x : FVec Ideal S50000x64 φ₁) (w : FVec Ideal S64x64 φ₂) (i : S50000x64.Idx) :
    Host.dotGeneral dot_S50000x64_S64x64_S50000x64_1_0_0_1_n_n none x w i
      = ∑ k : Fin 64, (x (ix2 (i 0) k) : EReal) * (w (ix2 k (i 1)) : EReal) := by
  simp only [Host.dotGeneral]
  rw [Ideal.dotGeneral_apply, ← Equiv.sum_comp (ValueIdx.contrEquiv1 dot_S50000x64_S64x64_S50000x64_1_0_0_1_n_n 64 rfl rfl).symm]
  refine Finset.sum_congr rfl fun k _ => ?_
  have hk := ValueIdx.contrEquiv1_symm_val dot_S50000x64_S64x64_S50000x64_1_0_0_1_n_n 64 rfl rfl k
  have el : dot_S50000x64_S64x64_S50000x64_1_0_0_1_n_n.lhsIdx i ((ValueIdx.contrEquiv1 dot_S50000x64_S64x64_S50000x64_1_0_0_1_n_n 64 rfl rfl).symm k) = ix2 (i 0) k := funext fun a => Fin.ext (by
    match a with
    | ⟨0, _⟩ => exact c_lhs0 _ _
    | ⟨1, _⟩ => exact (c_lhs1 _ _).trans hk)
  have er : dot_S50000x64_S64x64_S50000x64_1_0_0_1_n_n.rhsIdx i ((ValueIdx.contrEquiv1 dot_S50000x64_S64x64_S50000x64_1_0_0_1_n_n 64 rfl rfl).symm k) = ix2 k (i 1) := funext fun a => Fin.ext (by
    match a with
    | ⟨0, _⟩ => exact (c_rhs0 _ _).trans hk
    | ⟨1, _⟩ => exact c_rhs1 _ _)
  rw [el, er]
  try rfl

/-! ### `S50000x2` = `S50000x64` · `S64x2` -/

theorem d_lhs0 (i : S50000x2.Idx) (q : dot_S50000x64_S64x2_S50000x2_1_0_0_1_n_n.contr.Idx) : (dot_S50000x64_S64x2_S50000x2_1_0_0_1_n_n.lhsIdx i q 0).val = (i 0).val := by
  unfold DotDims.lhsIdx
  rw [dif_neg (show ¬(0 : Fin S50000x64.rank) ∈ dot_S50000x64_S64x2_S50000x2_1_0_0_1_n_n.lhsBatch by decide), dif_pos (show (0 : Fin S50000x64.rank) ∈ dot_S50000x64_S64x2_S50000x2_1_0_0_1_n_n.lhsNonContracting by decide)]
  rfl
theorem d_lhs1 (i : S50000x2.Idx) (q : dot_S50000x64_S64x2_S50000x2_1_0_0_1_n_n.contr.Idx) : (dot_S50000x64_S64x2_S50000x2_1_0_0_1_n_n.lhsIdx i q 1).val = (q ⟨0, by decide⟩).val :=
  dot_S50000x64_S64x2_S50000x2_1_0_0_1_n_n.lhsIdx_val_of_single rfl i q
theorem d_rhs0 (i : S50000x2.Idx) (q : dot_S50000x64_S64x2_S50000x2_1_0_0_1_n_n.contr.Idx) : (dot_S50000x64_S64x2_S50000x2_1_0_0_1_n_n.rhsIdx i q 0).val = (q ⟨0, by decide⟩).val :=
  dot_S50000x64_S64x2_S50000x2_1_0_0_1_n_n.rhsIdx_val_of_single rfl i q
theorem d_rhs1 (i : S50000x2.Idx) (q : dot_S50000x64_S64x2_S50000x2_1_0_0_1_n_n.contr.Idx) : (dot_S50000x64_S64x2_S50000x2_1_0_0_1_n_n.rhsIdx i q 1).val = (i 1).val := by
  unfold DotDims.rhsIdx
  rw [dif_neg (show ¬(1 : Fin S64x2.rank) ∈ dot_S50000x64_S64x2_S50000x2_1_0_0_1_n_n.rhsBatch by decide), dif_pos (show (1 : Fin S64x2.rank) ∈ dot_S50000x64_S64x2_S50000x2_1_0_0_1_n_n.rhsNonContracting by decide)]
  rfl

/-- The host's product at row `i 0` and column `i 1`: the sum over the 64 contracted positions `k` of the left
    factor at `(i 0, k)` times the right factor at `(k, i 1)`. -/
theorem d_apply {φ₁ φ₂ : FTy} (x : FVec Ideal S50000x64 φ₁) (w : FVec Ideal S64x2 φ₂) (i : S50000x2.Idx) :
    Host.dotGeneral dot_S50000x64_S64x2_S50000x2_1_0_0_1_n_n none x w i
      = ∑ k : Fin 64, (x (ix2 (i 0) k) : EReal) * (w (ix2 k (i 1)) : EReal) := by
  simp only [Host.dotGeneral]
  rw [Ideal.dotGeneral_apply, ← Equiv.sum_comp (ValueIdx.contrEquiv1 dot_S50000x64_S64x2_S50000x2_1_0_0_1_n_n 64 rfl rfl).symm]
  refine Finset.sum_congr rfl fun k _ => ?_
  have hk := ValueIdx.contrEquiv1_symm_val dot_S50000x64_S64x2_S50000x2_1_0_0_1_n_n 64 rfl rfl k
  have el : dot_S50000x64_S64x2_S50000x2_1_0_0_1_n_n.lhsIdx i ((ValueIdx.contrEquiv1 dot_S50000x64_S64x2_S50000x2_1_0_0_1_n_n 64 rfl rfl).symm k) = ix2 (i 0) k := funext fun a => Fin.ext (by
    match a with
    | ⟨0, _⟩ => exact d_lhs0 _ _
    | ⟨1, _⟩ => exact (d_lhs1 _ _).trans hk)
  have er : dot_S50000x64_S64x2_S50000x2_1_0_0_1_n_n.rhsIdx i ((ValueIdx.contrEquiv1 dot_S50000x64_S64x2_S50000x2_1_0_0_1_n_n 64 rfl rfl).symm k) = ix2 k (i 1) := funext fun a => Fin.ext (by
    match a with
    | ⟨0, _⟩ => exact (d_rhs0 _ _).trans hk
    | ⟨1, _⟩ => exact d_rhs1 _ _)
  rw [el, er]
  try rfl

end Cert.ReferenceIdeal.DotAt

end
-- ==== Proof.MatmulAt.lean ====
/-
  The four matrix products of the kernels' bodies, each read at an index at the ideal instance.  A product
  `[M, K] · [K, N]` into a zero accumulator is, at row `r` and column `s`, the sum over `k < K` of the left
  factor at `(r, k)` times the right factor at `(k, s)`: the contracted index type of the dimension record is
  re-indexed by `Fin K`, and the record's operand indices computed coordinate by coordinate.
-/
import proofs.«102883_j78546361909653_1_alg».proof.Proof.Gen.KernelIdeal
import Idealize.ShloMosaic.Lib.ValueIdx
import Idealize.ShloMosaic.PureOps.Ideal.Laws

noncomputable section

namespace Cert.KernelIdeal.MatmulAt

open Idealize.ShloMosaic Idealize.ShloMosaic.ValueIdx Cert.KernelIdeal Cert.KernelIdeal.Gen

/-! ### `S5000x32` = `S5000x128` · `S128x32` -/

theorem a_lhs0 (i : S5000x32.Idx) (q : dot_S5000x128_S128x32_S5000x32_1_0_0_1_n_n.contr.Idx) : (dot_S5000x128_S128x32_S5000x32_1_0_0_1_n_n.lhsIdx i q 0).val = (i 0).val := by
  unfold DotDims.lhsIdx
  rw [dif_neg (show ¬(0 : Fin S5000x128.rank) ∈ dot_S5000x128_S128x32_S5000x32_1_0_0_1_n_n.lhsBatch by decide), dif_pos (show (0 : Fin S5000x128.rank) ∈ dot_S5000x128_S128x32_S5000x32_1_0_0_1_n_n.lhsNonContracting by decide)]
  rfl
theorem a_lhs1 (i : S5000x32.Idx) (q : dot_S5000x128_S128x32_S5000x32_1_0_0_1_n_n.contr.Idx) : (dot_S5000x128_S128x32_S5000x32_1_0_0_1_n_n.lhsIdx i q 1).val = (q ⟨0, by decide⟩).val :=
  dot_S5000x128_S128x32_S5000x32_1_0_0_1_n_n.lhsIdx_val_of_single rfl i q
theorem a_rhs0 (i : S5000x32.Idx) (q : dot_S5000x128_S128x32_S5000x32_1_0_0_1_n_n.contr.Idx) : (dot_S5000x128_S128x32_S5000x32_1_0_0_1_n_n.rhsIdx i q 0).val = (q ⟨0, by decide⟩).val :=
  dot_S5000x128_S128x32_S5000x32_1_0_0_1_n_n.rhsIdx_val_of_single rfl i q
theorem a_rhs1 (i : S5000x32.Idx) (q : dot_S5000x128_S128x32_S5000x32_1_0_0_1_n_n.contr.Idx) : (dot_S5000x128_S128x32_S5000x32_1_0_0_1_n_n.rhsIdx i q 1).val = (i 1).val := by
  unfold DotDims.rhsIdx
  rw [dif_neg (show ¬(1 : Fin S128x32.rank) ∈ dot_S5000x128_S128x32_S5000x32_1_0_0_1_n_n.rhsBatch by decide), dif_pos (show (1 : Fin S128x32.rank) ∈ dot_S5000x128_S128x32_S5000x32_1_0_0_1_n_n.rhsNonContracting by decide)]
  rfl

/-- The product into a zero accumulator, at row `i 0` and column `i 1`: the sum over the 128 contracted positions
    `k` of the left factor at `(i 0, k)` times the right factor at `(k, i 1)`. -/
theorem a_apply {φ₁ φ₂ : FTy} (x : FVec Ideal S5000x128 φ₁) (w : FVec Ideal S128x32 φ₂) (i : S5000x32.Idx) :
    matmul dot_S5000x128_S128x32_S5000x32_1_0_0_1_n_n none x w (constant (F := Ideal) S5000x32 .f32 0x00000000#32) i
      = ∑ k : Fin 128, (x (ix2 (i 0) k) : EReal) * (w (ix2 k (i 1)) : EReal) := by
  show FloatOps.matmul dot_S5000x128_S128x32_S5000x32_1_0_0_1_n_n none x w (constant (F := Ideal) S5000x32 .f32 0x00000000#32) i = _
  rw [Ideal.matmul_constant_zero_apply, ← Equiv.sum_comp (ValueIdx.contrEquiv1 dot_S5000x128_S128x32_S5000x32_1_0_0_1_n_n 128 rfl rfl).symm]
  refine Finset.sum_congr rfl fun k _ => ?_
  have hk := ValueIdx.contrEquiv1_symm_val dot_S5000x128_S128x32_S5000x32_1_0_0_1_n_n 128 rfl rfl k
  have el : dot_S5000x128_S128x32_S5000x32_1_0_0_1_n_n.lhsIdx i ((ValueIdx.contrEquiv1 dot_S5000x128_S128x32_S5000x32_1_0_0_1_n_n 128 rfl rfl).symm k) = ix2 (i 0) k := funext fun a => Fin.ext (by
    match a with
    | ⟨0, _⟩ => exact a_lhs0 _ _
    | ⟨1, _⟩ => exact (a_lhs1 _ _).trans hk)
  have er : dot_S5000x128_S128x32_S5000x32_1_0_0_1_n_n.rhsIdx i ((ValueIdx.contrEquiv1 dot_S5000x128_S128x32_S5000x32_1_0_0_1_n_n 128 rfl rfl).symm k) = ix2 k (i 1) := funext fun a => Fin.ext (by
    match a with
    | ⟨0, _⟩ => exact (a_rhs0 _ _).trans hk
    | ⟨1, _⟩ => exact a_rhs1 _ _)
  rw [el, er]
  try rfl

/-! ### `S5000x64` = `S5000x32` · `S32x64` -/

theorem b_lhs0 (i : S5000x64.Idx) (q : dot_S5000x32_S32x64_S5000x64_1_0_0_1_n_n.contr.Idx) : (dot_S5000x32_S32x64_S5000x64_1_0_0_1_n_n.lhsIdx i q 0).val = (i 0).val := by
  unfold DotDims.lhsIdx
  rw [dif_neg (show ¬(0 : Fin S5000x32.rank) ∈ dot_S5000x32_S32x64_S5000x64_1_0_0_1_n_n.lhsBatch by decide), dif_pos (show (0 : Fin S5000x32.rank) ∈ dot_S5000x32_S32x64_S5000x64_1_0_0_1_n_n.lhsNonContracting by decide)]
  rfl
theorem b_lhs1 (i : S5000x64.Idx) (q : dot_S5000x32_S32x64_S5000x64_1_0_0_1_n_n.contr.Idx) : (dot_S5000x32_S32x64_S5000x64_1_0_0_1_n_n.lhsIdx i q 1).val = (q ⟨0, by decide⟩).val :=
  dot_S5000x32_S32x64_S5000x64_1_0_0_1_n_n.lhsIdx_val_of_single rfl i q
theorem b_rhs0 (i : S5000x64.Idx) (q : dot_S5000x32_S32x64_S5000x64_1_0_0_1_n_n.contr.Idx) : (dot_S5000x32_S32x64_S5000x64_1_0_0_1_n_n.rhsIdx i q 0).val = (q ⟨0, by decide⟩).val :=
  dot_S5000x32_S32x64_S5000x64_1_0_0_1_n_n.rhsIdx_val_of_single rfl i q
theorem b_rhs1 (i : S5000x64.Idx) (q : dot_S5000x32_S32x64_S5000x64_1_0_0_1_n_n.contr.Idx) : (dot_S5000x32_S32x64_S5000x64_1_0_0_1_n_n.rhsIdx i q 1).val = (i 1).val := by
  unfold DotDims.rhsIdx
  rw [dif_neg (show ¬(1 : Fin S32x64.rank) ∈ dot_S5000x32_S32x64_S5000x64_1_0_0_1_n_n.rhsBatch by decide), dif_pos (show (1 : Fin S32x64.rank) ∈ dot_S5000x32_S32x64_S5000x64_1_0_0_1_n_n.rhsNonContracting by decide)]
  rfl

/-- The product into a zero accumulator, at row `i 0` and column `i 1`: the sum over the 32 contracted positions
    `k` of the left factor at `(i 0, k)` times the right factor at `(k, i 1)`. -/
theorem b_apply {φ₁ φ₂ : FTy} (x : FVec Ideal S5000x32 φ₁) (w : FVec Ideal S32x64 φ₂) (i : S5000x64.Idx) :
    matmul dot_S5000x32_S32x64_S5000x64_1_0_0_1_n_n none x w (constant (F := Ideal) S5000x64 .f32 0x00000000#32) i
      = ∑ k : Fin 32, (x (ix2 (i 0) k) : EReal) * (w (ix2 k (i 1)) : EReal) := by
  show FloatOps.matmul dot_S5000x32_S32x64_S5000x64_1_0_0_1_n_n none x w (constant (F := Ideal) S5000x64 .f32 0x00000000#32) i = _
  rw [Ideal.matmul_constant_zero_apply, ← Equiv.sum_comp (ValueIdx.contrEquiv1 dot_S5000x32_S32x64_S5000x64_1_0_0_1_n_n 32 rfl rfl).symm]
  refine Finset.sum_congr rfl fun k _ => ?_
  have hk := ValueIdx.contrEquiv1_symm_val dot_S5000x32_S32x64_S5000x64_1_0_0_1_n_n 32 rfl rfl k
  have el : dot_S5000x32_S32x64_S5000x64_1_0_0_1_n_n.lhsIdx i ((ValueIdx.contrEquiv1 dot_S5000x32_S32x64_S5000x64_1_0_0_1_n_n 32 rfl rfl).symm k) = ix2 (i 0) k := funext fun a => Fin.ext (by
    match a with
    | ⟨0, _⟩ => exact b_lhs0 _ _
    | ⟨1, _⟩ => exact (b_lhs1 _ _).trans hk)
  have er : dot_S5000x32_S32x64_S5000x64_1_0_0_1_n_n.rhsIdx i ((ValueIdx.contrEquiv1 dot_S5000x32_S32x64_S5000x64_1_0_0_1_n_n 32 rfl rfl).symm k) = ix2 k (i 1) := funext fun a => Fin.ext (by
    match a with
    | ⟨0, _⟩ => exact (b_rhs0 _ _).trans hk
    | ⟨1, _⟩ => exact b_rhs1 _ _)
  rw [el, er]
  try rfl

/-! ### `S5000x64` = `S5000x64` · `S64x64` -/

theorem c_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem c_lhs1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem c_rhs0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem c_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The product into a zero accumulator, at row `i 0` and column `i 1`: the sum over the 64 contracted positions
    `k` of the left factor at `(i 0, k)` times the right factor at `(k, i 1)`. -/
theorem c_apply {φ₁ φ₂ : FTy} (x : FVec Ideal S5000x64 φ₁) (w : FVec Ideal S64x64 φ₂) (i : S5000x64.Idx) :
    matmul dot_S5000x64_S64x64_S5000x64_1_0_0_1_n_n none x w (constant (F := Ideal) S5000x64 .f32 0x00000000#32) i
      = ∑ k : Fin 64, (x (ix2 (i 0) k) : EReal) * (w (ix2 k (i 1)) : EReal) := by
  show FloatOps.matmul dot_S5000x64_S64x64_S5000x64_1_0_0_1_n_n none x w (constant (F := Ideal) S5000x64 .f32 0x00000000#32) i = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx i ((ValueIdx.contrEquiv1 dot_S5000x64_S64x64_S5000x64_1_0_0_1_n_n 64 rfl rfl).symm k) = ix2 (i 0) k := funext fun a => Fin.ext (by
    match a with
    | ⟨0, _⟩ => exact c_lhs0 _ _
    | ⟨1, _⟩ => exact (c_lhs1 _ _).trans hk)
  have er : dot_S5000x64_S64x64_S5000x64_1_0_0_1_n_n.rhsIdx i ((ValueIdx.contrEquiv1 dot_S5000x64_S64x64_S5000x64_1_0_0_1_n_n 64 rfl rfl).symm k) = ix2 k (i 1) := funext fun a => Fin.ext (by
    match a with
    | ⟨0, _⟩ => exact (c_rhs0 _ _).trans hk
    | ⟨1, _⟩ => exact c_rhs1 _ _)
  rw [el, er]
  try rfl

/-! ### `S5000x2` = `S5000x64` · `S64x2` -/

theorem d_lhs0 (i : S5000x2.Idx) (q : dot_S5000x64_S64x2_S5000x2_1_0_0_1_n_n.contr.Idx) : (dot_S5000x64_S64x2_S5000x2_1_0_0_1_n_n.lhsIdx i q 0).val = (i 0).val := by
  unfold DotDims.lhsIdx
  rw [dif_neg (show ¬(0 : Fin S5000x64.rank) ∈ dot_S5000x64_S64x2_S5000x2_1_0_0_1_n_n.lhsBatch by decide), dif_pos (show (0 : Fin S5000x64.rank) ∈ dot_S5000x64_S64x2_S5000x2_1_0_0_1_n_n.lhsNonContracting by decide)]
  rfl
theorem d_lhs1 (i : S5000x2.Idx) (q : dot_S5000x64_S64x2_S5000x2_1_0_0_1_n_n.contr.Idx) : (dot_S5000x64_S64x2_S5000x2_1_0_0_1_n_n.lhsIdx i q 1).val = (q ⟨0, by decide⟩).val :=
  dot_S5000x64_S64x2_S5000x2_1_0_0_1_n_n.lhsIdx_val_of_single rfl i q
theorem d_rhs0 (i : S5000x2.Idx) (q : dot_S5000x64_S64x2_S5000x2_1_0_0_1_n_n.contr.Idx) : (dot_S5000x64_S64x2_S5000x2_1_0_0_1_n_n.rhsIdx i q 0).val = (q ⟨0, by decide⟩).val :=
  dot_S5000x64_S64x2_S5000x2_1_0_0_1_n_n.rhsIdx_val_of_single rfl i q
theorem d_rhs1 (i : S5000x2.Idx) (q : dot_S5000x64_S64x2_S5000x2_1_0_0_1_n_n.contr.Idx) : (dot_S5000x64_S64x2_S5000x2_1_0_0_1_n_n.rhsIdx i q 1).val = (i 1).val := by
  unfold DotDims.rhsIdx
  rw [dif_neg (show ¬(1 : Fin S64x2.rank) ∈ dot_S5000x64_S64x2_S5000x2_1_0_0_1_n_n.rhsBatch by decide), dif_pos (show (1 : Fin S64x2.rank) ∈ dot_S5000x64_S64x2_S5000x2_1_0_0_1_n_n.rhsNonContracting by decide)]
  rfl

/-- The product into a zero accumulator, at row `i 0` and column `i 1`: the sum over the 64 contracted positions
    `k` of the left factor at `(i 0, k)` times the right factor at `(k, i 1)`. -/
theorem d_apply {φ₁ φ₂ : FTy} (x : FVec Ideal S5000x64 φ₁) (w : FVec Ideal S64x2 φ₂) (i : S5000x2.Idx) :
    matmul dot_S5000x64_S64x2_S5000x2_1_0_0_1_n_n none x w (constant (F := Ideal) S5000x2 .f32 0x00000000#32) i
      = ∑ k : Fin 64, (x (ix2 (i 0) k) : EReal) * (w (ix2 k (i 1)) : EReal) := by
  show FloatOps.matmul dot_S5000x64_S64x2_S5000x2_1_0_0_1_n_n none x w (constant (F := Ideal) S5000x2 .f32 0x00000000#32) i = _
  rw [Ideal.matmul_constant_zero_apply, ← Equiv.sum_comp (ValueIdx.contrEquiv1 dot_S5000x64_S64x2_S5000x2_1_0_0_1_n_n 64 rfl rfl).symm]
  refine Finset.sum_congr rfl fun k _ => ?_
  have hk := ValueIdx.contrEquiv1_symm_val dot_S5000x64_S64x2_S5000x2_1_0_0_1_n_n 64 rfl rfl k
  have el : dot_S5000x64_S64x2_S5000x2_1_0_0_1_n_n.lhsIdx i ((ValueIdx.contrEquiv1 dot_S5000x64_S64x2_S5000x2_1_0_0_1_n_n 64 rfl rfl).symm k) = ix2 (i 0) k := funext fun a => Fin.ext (by
    match a with
    | ⟨0, _⟩ => exact d_lhs0 _ _
    | ⟨1, _⟩ => exact (d_lhs1 _ _).trans hk)
  have er : dot_S5000x64_S64x2_S5000x2_1_0_0_1_n_n.rhsIdx i ((ValueIdx.contrEquiv1 dot_S5000x64_S64x2_S5000x2_1_0_0_1_n_n 64 rfl rfl).symm k) = ix2 k (i 1) := funext fun a => Fin.ext (by
    match a with
    | ⟨0, _⟩ => exact (d_rhs0 _ _).trans hk
    | ⟨1, _⟩ => exact d_rhs1 _ _)
  rw [el, er]
  try rfl

end Cert.KernelIdeal.MatmulAt

end
-- ==== Proof.Mlp0.lean ====
/-
  Region 0: the two-layer perceptron on a block of 5000 rows per grid point.  For a row `r` and a column `s` the
  body computes  Σ_{k<32} max(Σ_{l<128} X(r,l)·W₁(l,k) + b₁(k), 0) · W₂(k,s) + b₂(s)  (the changes of float format are
  the identity at the ideal instance).  The ten row blocks tile the output array, so after the region the output array
  is that function of the arrays the region found, position by position.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Mlp0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first bias row broadcast down the rows, at a position: the row's entry in that column. -/
theorem bias32_apply (x : Vec Ideal S1x32 .f32) (j : S5000x32.Idx) :
    broadcastTo S5000x32 x broadcasts_S1x32_S5000x32 j = x (ix2 0 (j 1)) :=
  broadcastTo_apply x broadcasts_S1x32_S5000x32 j (ix2 0 (j 1)) (fun a => match a with
    | ⟨0, _⟩ => by show (0 : Nat) = if (1 : Nat) = 1 then 0 else (j 0).val; rw [if_pos rfl]
    | ⟨1, _⟩ => by show (j 1).val = if (32 : Nat) = 1 then 0 else (j 1).val; rw [if_neg (by decide)])

/-- The second bias row broadcast down the rows, at a position. -/
theorem bias64_apply (x : Vec Ideal S1x64 .f32) (j : S5000x64.Idx) :
    broadcastTo S5000x64 x broadcasts_S1x64_S5000x64 j = x (ix2 0 (j 1)) :=
  broadcastTo_apply x broadcasts_S1x64_S5000x64 j (ix2 0 (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The hidden layer of a row: the rectified affine image of the row, at hidden unit `k`. -/
def hidden (X : Fin 128 → EReal) (W1 : S128x32.Idx → EReal) (B1 : S1x32.Idx → EReal) (k : Fin 32) : EReal :=
  FloatOps.maximumf (F := Ideal) (φ := .f32) (FloatOps.addf (F := Ideal) (φ := .f32) (∑ l : Fin 128, X l * W1 (ix2 l k)) (B1 (ix2 0 k)))
    (FloatOps.ofBits (F := Ideal) .f32 0x00000000#32)

/-- The body's value at a position of the block. -/
theorem pay_apply (x0 : Vec Ideal S5000x128 .f32) (x1 : Vec Ideal S128x32 .f32) (x2 : Vec Ideal S1x32 .f32)
    (x3 : Vec Ideal S32x64 .f32) (x4 : Vec Ideal S1x64 .f32) (j : S5000x64.Idx) :
    k0_pay1 (F := Ideal) x0 x1 x2 x3 x4 j
      = FloatOps.addf (F := Ideal) (φ := .f32) (∑ k : Fin 32, hidden (fun l => x0 (ix2 (j 0) l)) x1 x2 k * x3 (ix2 k (j 1))) (x4 (ix2 0 (j 1))) := by
  unfold k0_pay1
  simp only [shapeCast_self]
  refine congrArg₂ (FloatOps.addf (F := Ideal) (φ := .f32)) ?_ (bias64_apply x4 j)
  refine (MatmulAt.b_apply _ _ j).trans ?_
  refine Finset.sum_congr rfl fun k _ => ?_
  refine congrArg₂ (fun a b : EReal => a * b) ?_ rfl
  refine congrArg₂ (FloatOps.maximumf (F := Ideal) (φ := .f32)) ?_ rfl
  refine congrArg₂ (FloatOps.addf (F := Ideal) (φ := .f32)) ?_ (bias32_apply x2 (ix2 (j 0) k))
  exact MatmulAt.a_apply _ _ (ix2 (j 0) k)

/-- The windows' index maps over the ten grid points: the two row-blocked windows sit at block row `t`, the
    weights' and biases' at their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The perceptron of whole arrays, position by position. -/
def G (X : S50000x128.Idx → EReal) (W1 : S128x32.Idx → EReal) (B1 : S1x32.Idx → EReal) (W2 : S32x64.Idx → EReal)
    (B2 : S1x64.Idx → EReal) : S50000x64.Idx → EReal :=
  fun i => FloatOps.addf (F := Ideal) (φ := .f32) (∑ k : Fin 32, hidden (fun l => X (ix2 (i 0) l)) W1 B1 k * W2 (ix2 k (i 1))) (B2 (ix2 0 (i 1)))

set_option maxHeartbeats 1000000 in
/-- What grid point `t` writes back is row block `t` of the perceptron of the arrays the region found. -/
theorem flushed_eq (c : Dev nD) (t : Fin cfg0.N) :
    (dat0 V c).flushed 5 t = ((cfg0.win 5).blk t).view.read (Elt Ideal)
      (G (V c main_arg0) (V c main_arg2) (V c main_v32) (V c main_arg4) (V c main_v33)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x32) hz, View.ld_unit_zero (S := S1x32) hz,
    View.ld_unit_zero (S := S32x64) hz, View.ld_unit_zero (S := S1x64) hz]
  obtain ⟨e0, e1, e2, e3, e4, e5, e6, e7, e8, e9, e10, e11⟩ := idx_facts t
  funext j
  refine (pay_apply _ _ _ _ _ j).trans ?_
  have hX : ∀ l : Fin 128, iblk0 V c 0 t (ix2 (j 0) l) = V c main_arg0 (ix2 ((((cfg0.win 5).blk t).view.emb j) 0) l) := fun l => by
    show V c main_arg0 (((cfg0.win 0).blk t).view.emb (ix2 (j 0) l)) = _
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * l.val = l.val; omega
  have hW1 : ∀ y : S128x32.Idx, iblk0 V c 1 t y = V c main_arg2 y := fun y => by
    show V c main_arg2 (((cfg0.win 1).blk t).view.emb y) = _
    refine congrArg (V c main_arg2) (funext fun a => Fin.ext ?_)
    match a with
    | ⟨0, _⟩ => show win0_1.index t (0 : Fin 2) * 128 + 1 * (y 0).val = (y 0).val; omega
    | ⟨1, _⟩ => show win0_1.index t (1 : Fin 2) * 32 + 1 * (y 1).val = (y 1).val; omega
  have hB1 : ∀ y : S1x32.Idx, iblk0 V c 2 t y = V c main_v32 y := fun y => by
    show V c main_v32 (((cfg0.win 2).blk t).view.emb y) = _
    refine congrArg (V c main_v32) (funext fun a => Fin.ext ?_)
    match a with
    | ⟨0, _⟩ => show win0_2.index t (0 : Fin 2) * 1 + 1 * (y 0).val = (y 0).val; omega
    | ⟨1, _⟩ => show win0_2.index t (1 : Fin 2) * 32 + 1 * (y 1).val = (y 1).val; omega
  have hW2 : ∀ y : S32x64.Idx, iblk0 V c 3 t y = V c main_arg4 y := fun y => by
    show V c main_arg4 (((cfg0.win 3).blk t).view.emb y) = _
    refine congrArg (V c main_arg4) (funext fun a => Fin.ext ?_)
    match a with
    | ⟨0, _⟩ => show win0_3.index t (0 : Fin 2) * 32 + 1 * (y 0).val = (y 0).val; omega
    | ⟨1, _⟩ => show win0_3.index t (1 : Fin 2) * 64 + 1 * (y 1).val = (y 1).val; omega
  have hB2 : ∀ y : S1x64.Idx, iblk0 V c 4 t y = V c main_v33 y := fun y => by
    show V c main_v33 (((cfg0.win 4).blk t).view.emb y) = _
    refine congrArg (V c main_v33) (funext fun a => Fin.ext ?_)
    match a with
    | ⟨0, _⟩ => show win0_4.index t (0 : Fin 2) * 1 + 1 * (y 0).val = (y 0).val; omega
    | ⟨1, _⟩ => show win0_4.index t (1 : Fin 2) * 64 + 1 * (y 1).val = (y 1).val; omega
  have hc1 : ((((cfg0.win 5).blk t).view.emb j) 1) = j 1 := Fin.ext (by
    show win0_5.index t (1 : Fin 2) * 64 + 1 * (j 1).val = (j 1).val; omega)
  have eW1 : (iblk0 V c 1 t : S128x32.Idx → EReal) = V c main_arg2 := funext hW1
  have eB1 : (iblk0 V c 2 t : S1x32.Idx → EReal) = V c main_v32 := funext hB1
  have eW2 : (iblk0 V c 3 t : S32x64.Idx → EReal) = V c main_arg4 := funext hW2
  have eB2 : (iblk0 V c 4 t : S1x64.Idx → EReal) = V c main_v33 := funext hB2
  have eX : (fun l : Fin 128 => iblk0 V c 0 t (ix2 (j 0) l)) = fun l => V c main_arg0 (ix2 ((((cfg0.win 5).blk t).view.emb j) 0) l) := funext hX
  have hH : ∀ k : Fin 32, hidden (fun l => iblk0 V c 0 t (ix2 (j 0) l)) (iblk0 V c 1 t) (iblk0 V c 2 t) k
      = hidden (fun l => V c main_arg0 (ix2 ((((cfg0.win 5).blk t).view.emb j) 0) l)) (V c main_arg2) (V c main_v32) k := fun k => by
    rw [eX, eW1, eB1]
  have hW2' : ∀ k : Fin 32, iblk0 V c 3 t (ix2 k (j 1)) = V c main_arg4 (ix2 k ((((cfg0.win 5).blk t).view.emb j) 1)) := fun k =>
    (congrFun eW2 _).trans (congrArg (fun s => V c main_arg4 (ix2 k s)) hc1.symm)
  have hB2' : iblk0 V c 4 t (ix2 0 (j 1)) = V c main_v33 (ix2 0 ((((cfg0.win 5).blk t).view.emb j) 1)) :=
    (congrFun eB2 _).trans (congrArg (fun s => V c main_v33 (ix2 0 s)) hc1.symm)
  exact congrArg₂ (FloatOps.addf (F := Ideal) (φ := .f32))
    (Finset.sum_congr rfl fun k _ => congrArg₂ (fun a b : EReal => a * b) (hH k) (hW2' k)) hB2'

/-- A position of the output array lies in grid point `t`'s block iff each coordinate is in the block's range. -/
theorem mem_blk (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v34).slice (win0_5.rect t)).set ↔ _
  rw [View.set_slice_whole, Rect.mem_set_unit]
  exact Iff.rfl

/-- Every position of the output array is written: row `r` by grid point `r / 5000`. -/
theorem cover (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN : grid0.N = 10 := N_0
  have ht : (i 0).val / 5000 < cfg0.N := by show (i 0).val / 5000 < grid0.N; omega
  obtain ⟨e0, e1, e2, e3, e4, e5, e6, e7, e8, e9, e10, e11⟩ := idx_facts ⟨(i 0).val / 5000, ht⟩
  have e10' : win0_5.index ⟨(i 0).val / 5000, ht⟩ (0 : Fin 2) = (i 0).val / 5000 := e10
  refine ⟨⟨(i 0).val / 5000, ht⟩, flush0_5 _, ?_⟩
  rw [mem_blk]
  intro a
  match a with
  | ⟨0, _⟩ => show win0_5.index ⟨(i 0).val / 5000, ht⟩ (0 : Fin 2) * 5000 ≤ (i 0).val ∧ (i 0).val < win0_5.index ⟨(i 0).val / 5000, ht⟩ (0 : Fin 2) * 5000 + 5000; omega
  | ⟨1, _⟩ => show win0_5.index ⟨(i 0).val / 5000, ht⟩ (1 : Fin 2) * 64 ≤ (i 1).val ∧ (i 1).val < win0_5.index ⟨(i 0).val / 5000, ht⟩ (1 : Fin 2) * 64 + 64; omega

/-- THE OUTPUT ARRAY after the region: the perceptron of the arrays as the region found them. -/
theorem out_eq (c : Dev nD) : (dat0 V c).arrAt 5 cfg0.N = G (V c main_arg0) (V c main_arg2) (V c main_v32) (V c main_arg4) (V c main_v33) :=
  (dat0 V c).arrAt_eq_of_cover 5 _ (fun t _ => flushed_eq V c t) cover

end Cert.KernelIdeal.Mlp0

end
-- ==== Proof.Linear1.lean ====
/-
  Region 1: a block of 5000 rows of a [50000, 64] array times a [64, 64] matrix, per grid point.
  The body's one store writes the block's product; the ten row blocks tile the output array, so after the region the
  output array is, at row `r` and column `s`, the sum over `k < 64` of the input array at `(r, k)` times the
  matrix at `(k, s)` — whatever the region found in its input arrays.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Linear1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at a position of the block: the row of the loaded block against the column of the matrix
    (the changes of float format are the identity at the ideal instance). -/
theorem pay_apply (x0 : Vec Ideal S5000x64 .f32) (x1 : Vec Ideal S64x64 .f32) (j : S5000x64.Idx) :
    k1_pay1 (F := Ideal) x0 x1 j = ∑ k : Fin 64, x0 (ix2 (j 0) k) * x1 (ix2 k (j 1)) := by
  unfold k1_pay1
  refine (MatmulAt.c_apply _ _ j).trans ?_
  refine Finset.sum_congr rfl fun k _ => ?_
  rw [truncf_apply, truncf_apply, shapeCast_self]

/-- The windows' index maps over the ten grid points: the row-blocked windows sit at block row `t`, the matrix's at
    its one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The product of a [50000, 64] array and a [64, 64] matrix, position by position. -/
def G (X : S50000x64.Idx → EReal) (W : S64x64.Idx → EReal) : S50000x64.Idx → EReal :=
  fun i => ∑ k : Fin 64, X (ix2 (i 0) k) * W (ix2 k (i 1))

/-- What grid point `t` writes back is row block `t` of the product of the arrays the region found. -/
theorem flushed_eq (c : Dev nD) (t : Fin cfg1.N) :
    (dat1 V c).flushed 2 t = ((cfg1.win 2).blk t).view.read (Elt Ideal) (G (V c main_v34) (V c main_arg6)) := by
  show (cfg1.win 2).cut (grid1.coords t) ((dat1 V c).after 2 t) = _
  rw [after1_2]
  unfold out1_2
  rw [View.canon_unit_zero hz]
  simp only [View.ld_unit_zero (S := S5000x64) hz, View.ld_unit_zero (S := S64x64) hz]
  obtain ⟨e0, e1, e2, e3, e4, e5⟩ := idx_facts t
  funext j
  refine (pay_apply _ _ j).trans ?_
  show _ = G (V c main_v34) (V c main_arg6) (((cfg1.win 2).blk t).view.emb j)
  simp only [G]
  refine Finset.sum_congr rfl fun k _ => ?_
  have h0 : iblk1 V c 0 t (ix2 (j 0) k) = V c main_v34 (ix2 ((((cfg1.win 2).blk t).view.emb j) 0) k) := by
    show V c main_v34 (((cfg1.win 0).blk t).view.emb (ix2 (j 0) k)) = _
    refine congrArg (V c main_v34) (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * k.val = k.val; omega
  have h1 : iblk1 V c 1 t (ix2 k (j 1)) = V c main_arg6 (ix2 k ((((cfg1.win 2).blk t).view.emb j) 1)) := by
    show V c main_arg6 (((cfg1.win 1).blk t).view.emb (ix2 k (j 1))) = _
    refine congrArg (V c main_arg6) (funext fun a => Fin.ext ?_)
    match a with
    | ⟨0, _⟩ => show win1_1.index t (0 : Fin 2) * 64 + 1 * k.val = k.val; omega
    | ⟨1, _⟩ => show win1_1.index t (1 : Fin 2) * 64 + 1 * (j 1).val = win1_2.index t (1 : Fin 2) * 64 + 1 * (j 1).val; omega
  exact congrArg₂ (fun a b : EReal => a * b) h0 h1

/-- A position of the output array lies in grid point `t`'s block iff each coordinate is in the block's range. -/
theorem mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v35).slice (win1_2.rect t)).set ↔ _
  rw [View.set_slice_whole, Rect.mem_set_unit]
  exact Iff.rfl

/-- Every position of the output array is written: row `r` by grid point `r / 5000`. -/
theorem cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  have ht : (i 0).val / 5000 < cfg1.N := by show (i 0).val / 5000 < grid1.N; omega
  obtain ⟨e0, e1, e2, e3, e4, e5⟩ := idx_facts ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk]
  intro a
  match a with
  | ⟨0, _⟩ => show win1_2.index ⟨(i 0).val / 5000, ht⟩ (0 : Fin 2) * 5000 ≤ (i 0).val ∧ (i 0).val < win1_2.index ⟨(i 0).val / 5000, ht⟩ (0 : Fin 2) * 5000 + 5000; omega
  | ⟨1, _⟩ => show win1_2.index ⟨(i 0).val / 5000, ht⟩ (1 : Fin 2) * 64 ≤ (i 1).val ∧ (i 1).val < win1_2.index ⟨(i 0).val / 5000, ht⟩ (1 : Fin 2) * 64 + 64; omega

/-- THE OUTPUT ARRAY after the region: the product of the input array and the matrix as the region found them. -/
theorem out_eq (c : Dev nD) : (dat1 V c).arrAt 2 cfg1.N = G (V c main_v34) (V c main_arg6) :=
  (dat1 V c).arrAt_eq_of_cover 2 (G (V c main_v34) (V c main_arg6)) (fun t _ => flushed_eq V c t) cover

end Cert.KernelIdeal.Linear1

end
-- ==== Proof.Spec.lean ====
/-
  The leaky rectifier of the graph-convolution layers, written once in the operations' own words: a value `z` is kept
  where `z ≥ 0` and scaled by the single-precision literal of 0.2 elsewhere.  Both programs spell the literal with
  the same word, so it is never evaluated.
-/
import Idealize.ShloMosaic.PureOps.Ideal
import Idealize.ShloMosaic.Lib.ValueIdx

noncomputable section

namespace Cert.Spec

open Idealize.ShloMosaic

/-- `z` where `z ≥ 0`, `f32(0.2) · z` elsewhere. -/
def lrelu (z : Ideal .f32) : Ideal .f32 :=
  Scalar.select (FloatOps.cmpf (F := Ideal) .oge z (FloatOps.ofBits (F := Ideal) .f32 0x00000000#32)) z
    (FloatOps.mulf (FloatOps.ofBits (F := Ideal) .f32 0x3E4CCCCD#32) z)

end Cert.Spec

end
-- ==== Proof.Post2.lean ====
/-
  Region 2: the layer's epilogue on a block of 5000 rows per grid point — the leaky rectifier of the aggregated array plus the bias row.
  The body's one store writes the block; the ten row blocks tile the output array, so after the region the output
  array is that pointwise function of the arrays the region found, position by position.
-/
import proofs.«102883_j78546361909653_1_alg».proof.Proof.Gen.KernelIdeal.Frame
import proofs.«102883_j78546361909653_1_alg».proof.Proof.Spec
import Idealize.ShloMosaic.Lib.Pipeline.Value
import Idealize.ShloMosaic.Lib.ValueIdx

set_option maxRecDepth 16384

noncomputable section

namespace Cert.KernelIdeal.Post2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row broadcast down the block's rows, at a position: the row's entry in that column. -/
theorem bias_apply (x : Vec Ideal S1x64 .f32) (j : S5000x64.Idx) :
    broadcastTo S5000x64 x broadcasts_S1x64_S5000x64 j = x (ix2 0 (j 1)) :=
  broadcastTo_apply x broadcasts_S1x64_S5000x64 j (ix2 0 (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The body's value at a position of the block. -/
theorem pay_apply (x0 : Vec Ideal S5000x64 .f32) (x2 : Vec Ideal S1x64 .f32) (j : S5000x64.Idx) :
    k2_pay1 (F := Ideal) x0 x2 j = Cert.Spec.lrelu (FloatOps.addf (F := Ideal) (φ := .f32) (x0 j) (x2 (ix2 0 (j 1)))) := by
  unfold k2_pay1
  simp only [shapeCast_self]
  rw [← bias_apply x2 j]
  rfl

/-- The windows' index maps over the ten grid points: the row-blocked windows sit at block row `t`, the bias row's
    at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- The epilogue of whole arrays, position by position. -/
def G (A : S50000x64.Idx → EReal) (B : S1x64.Idx → EReal) : S50000x64.Idx → EReal :=
  fun i => Cert.Spec.lrelu (FloatOps.addf (F := Ideal) (φ := .f32) (A i) (B (ix2 0 (i 1))))

/-- What grid point `t` writes back is row block `t` of the epilogue of the arrays the region found. -/
theorem flushed_eq (c : Dev nD) (t : Fin cfg2.N) :
    (dat2 V c).flushed 3 t = ((cfg2.win 3).blk t).view.read (Elt Ideal) (G (V c main_v48) (V c main_v50)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ j).trans ?_
  have h0 : iblk2 V c 0 t j = V c main_v48 (((cfg2.win 3).blk t).view.emb j) := by
    show V c main_v48 (((cfg2.win 0).blk t).view.emb j) = _
    refine congrArg (V c main_v48) (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 64 + 1 * (j 1).val = win2_3.index t (1 : Fin 2) * 64 + 1 * (j 1).val; omega
  have h1 : iblk2 V c 1 t (ix2 0 (j 1)) = V c main_v50 (ix2 0 ((((cfg2.win 3).blk t).view.emb j) 1)) := by
    show V c main_v50 (((cfg2.win 1).blk t).view.emb (ix2 0 (j 1))) = _
    refine congrArg (V c main_v50) (funext fun a => Fin.ext ?_)
    match a with
    | ⟨0, _⟩ => show win2_1.index t (0 : Fin 2) * 1 + 1 * (0 : Nat) = 0; omega
    | ⟨1, _⟩ => show win2_1.index t (1 : Fin 2) * 64 + 1 * (j 1).val = win2_3.index t (1 : Fin 2) * 64 + 1 * (j 1).val; omega
  rw [h0, h1]
  rfl

/-- A position of the output array lies in grid point `t`'s block iff each coordinate is in the block's range. -/
theorem mem_blk (t : Fin cfg2.N) (i : S50000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v51).slice (win2_3.rect t)).set ↔ _
  rw [View.set_slice_whole, Rect.mem_set_unit]
  exact Iff.rfl

/-- Every position of the output array is written: row `r` by grid point `r / 5000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : grid2.N = 10 := N_2
  have ht : (i 0).val / 5000 < cfg2.N := by show (i 0).val / 5000 < grid2.N; omega
  obtain ⟨e0, e1, e2, e3, e4, e5, e6, e7⟩ := idx_facts ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_blk]
  intro a
  match a with
  | ⟨0, _⟩ => show win2_3.index ⟨(i 0).val / 5000, ht⟩ (0 : Fin 2) * 5000 ≤ (i 0).val ∧ (i 0).val < win2_3.index ⟨(i 0).val / 5000, ht⟩ (0 : Fin 2) * 5000 + 5000; omega
  | ⟨1, _⟩ => show win2_3.index ⟨(i 0).val / 5000, ht⟩ (1 : Fin 2) * 64 ≤ (i 1).val ∧ (i 1).val < win2_3.index ⟨(i 0).val / 5000, ht⟩ (1 : Fin 2) * 64 + 64; omega

/-- THE OUTPUT ARRAY after the region: the epilogue of the arrays as the region found them. -/
theorem out_eq (c : Dev nD) : (dat2 V c).arrAt 3 cfg2.N = G (V c main_v48) (V c main_v50) :=
  (dat2 V c).arrAt_eq_of_cover 3 (G (V c main_v48) (V c main_v50)) (fun t _ => flushed_eq V c t) cover

end Cert.KernelIdeal.Post2

end
-- ==== Proof.Post4.lean ====
/-
  Region 4: the layer's epilogue on a block of 5000 rows per grid point — the leaky rectifier of the aggregated array plus the bias row, plus the residual array.
  The body's one store writes the block; the ten row blocks tile the output array, so after the region the output
  array is that pointwise function of the arrays the region found, position by position.
-/
import proofs.«102883_j78546361909653_1_alg».proof.Proof.Gen.KernelIdeal.Frame
import proofs.«102883_j78546361909653_1_alg».proof.Proof.Spec
import Idealize.ShloMosaic.Lib.Pipeline.Value
import Idealize.ShloMosaic.Lib.ValueIdx

set_option maxRecDepth 16384

noncomputable section

namespace Cert.KernelIdeal.Post4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row broadcast down the block's rows, at a position: the row's entry in that column. -/
theorem bias_apply (x : Vec Ideal S1x64 .f32) (j : S5000x64.Idx) :
    broadcastTo S5000x64 x broadcasts_S1x64_S5000x64 j = x (ix2 0 (j 1)) :=
  broadcastTo_apply x broadcasts_S1x64_S5000x64 j (ix2 0 (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The body's value at a position of the block. -/
theorem pay_apply (x0 : Vec Ideal S5000x64 .f32) (x2 : Vec Ideal S1x64 .f32) (x3 : Vec Ideal S5000x64 .f32) (j : S5000x64.Idx) :
    k4_pay1 (F := Ideal) x0 x2 x3 j = FloatOps.addf (F := Ideal) (φ := .f32) (Cert.Spec.lrelu (FloatOps.addf (F := Ideal) (φ := .f32) (x0 j) (x2 (ix2 0 (j 1))))) (x3 j) := by
  unfold k4_pay1
  simp only [shapeCast_self]
  rw [← bias_apply x2 j]
  rfl

/-- The windows' index maps over the ten grid points: the row-blocked windows sit at block row `t`, the bias row's
    at its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- The epilogue of whole arrays, position by position. -/
def G (A : S50000x64.Idx → EReal) (B : S1x64.Idx → EReal) (R : S50000x64.Idx → EReal) : S50000x64.Idx → EReal :=
  fun i => FloatOps.addf (F := Ideal) (φ := .f32) (Cert.Spec.lrelu (FloatOps.addf (F := Ideal) (φ := .f32) (A i) (B (ix2 0 (i 1))))) (R i)

/-- What grid point `t` writes back is row block `t` of the epilogue of the arrays the region found. -/
theorem flushed_eq (c : Dev nD) (t : Fin cfg4.N) :
    (dat4 V c).flushed 3 t = ((cfg4.win 3).blk t).view.read (Elt Ideal) (G (V c main_v65) (V c main_v66) (V c main_v51)) := by
  show (cfg4.win 3).cut (grid4.coords t) ((dat4 V c).after 3 t) = _
  rw [after4_3]
  unfold out4_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  have h0 : iblk4 V c 0 t j = V c main_v65 (((cfg4.win 3).blk t).view.emb j) := by
    show V c main_v65 (((cfg4.win 0).blk t).view.emb j) = _
    refine congrArg (V c main_v65) (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * (j 1).val = win4_3.index t (1 : Fin 2) * 64 + 1 * (j 1).val; omega
  have h1 : iblk4 V c 1 t (ix2 0 (j 1)) = V c main_v66 (ix2 0 ((((cfg4.win 3).blk t).view.emb j) 1)) := by
    show V c main_v66 (((cfg4.win 1).blk t).view.emb (ix2 0 (j 1))) = _
    refine congrArg (V c main_v66) (funext fun a => Fin.ext ?_)
    match a with
    | ⟨0, _⟩ => show win4_1.index t (0 : Fin 2) * 1 + 1 * (0 : Nat) = 0; omega
    | ⟨1, _⟩ => show win4_1.index t (1 : Fin 2) * 64 + 1 * (j 1).val = win4_3.index t (1 : Fin 2) * 64 + 1 * (j 1).val; omega
  have h2 : iblk4 V c 2 t j = V c main_v51 (((cfg4.win 3).blk t).view.emb j) := by
    show V c main_v51 (((cfg4.win 2).blk t).view.emb j) = _
    refine congrArg (V c main_v51) (funext fun a => Fin.ext ?_)
    match a with
    | ⟨0, _⟩ => show win4_2.index t (0 : Fin 2) * 5000 + 1 * (j 0).val = win4_3.index t (0 : Fin 2) * 5000 + 1 * (j 0).val; omega
    | ⟨1, _⟩ => show win4_2.index t (1 : Fin 2) * 64 + 1 * (j 1).val = win4_3.index t (1 : Fin 2) * 64 + 1 * (j 1).val; omega
  rw [h0, h1, h2]
  rfl

/-- A position of the output array lies in grid point `t`'s block iff each coordinate is in the block's range. -/
theorem mem_blk (t : Fin cfg4.N) (i : S50000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v67).slice (win4_3.rect t)).set ↔ _
  rw [View.set_slice_whole, Rect.mem_set_unit]
  exact Iff.rfl

/-- Every position of the output array is written: row `r` by grid point `r / 5000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : grid4.N = 10 := N_4
  have ht : (i 0).val / 5000 < cfg4.N := by show (i 0).val / 5000 < grid4.N; omega
  obtain ⟨e0, e1, e2, e3, e4, e5, e6, e7⟩ := idx_facts ⟨(i 0).val / 5000, ht⟩
  have e6' : win4_3.index ⟨(i 0).val / 5000, ht⟩ (0 : Fin 2) = (i 0).val / 5000 := e6
  refine ⟨⟨(i 0).val / 5000, ht⟩, flush4_3 _, ?_⟩
  rw [mem_blk]
  intro a
  match a with
  | ⟨0, _⟩ => show win4_3.index ⟨(i 0).val / 5000, ht⟩ (0 : Fin 2) * 5000 ≤ (i 0).val ∧ (i 0).val < win4_3.index ⟨(i 0).val / 5000, ht⟩ (0 : Fin 2) * 5000 + 5000; omega
  | ⟨1, _⟩ => show win4_3.index ⟨(i 0).val / 5000, ht⟩ (1 : Fin 2) * 64 ≤ (i 1).val ∧ (i 1).val < win4_3.index ⟨(i 0).val / 5000, ht⟩ (1 : Fin 2) * 64 + 64; omega

/-- THE OUTPUT ARRAY after the region: the epilogue of the arrays as the region found them. -/
theorem out_eq (c : Dev nD) : (dat4 V c).arrAt 3 cfg4.N = G (V c main_v65) (V c main_v66) (V c main_v51) :=
  (dat4 V c).arrAt_eq_of_cover 3 (G (V c main_v65) (V c main_v66) (V c main_v51)) (fun t _ => flushed_eq V c t) cover

end Cert.KernelIdeal.Post4

end
-- ==== Proof.Post6.lean ====
/-
  Region 6: the layer's epilogue on a block of 5000 rows per grid point — the leaky rectifier of the aggregated array plus the bias row.
  The body's one store writes the block; the ten row blocks tile the output array, so after the region the output
  array is that pointwise function of the arrays the region found, position by position.
-/
import proofs.«102883_j78546361909653_1_alg».proof.Proof.Gen.KernelIdeal.Frame
import proofs.«102883_j78546361909653_1_alg».proof.Proof.Spec
import Idealize.ShloMosaic.Lib.Pipeline.Value
import Idealize.ShloMosaic.Lib.ValueIdx

set_option maxRecDepth 16384

noncomputable section

namespace Cert.KernelIdeal.Post6

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row broadcast down the block's rows, at a position: the row's entry in that column. -/
theorem bias_apply (x : Vec Ideal S1x64 .f32) (j : S5000x64.Idx) :
    broadcastTo S5000x64 x broadcasts_S1x64_S5000x64 j = x (ix2 0 (j 1)) :=
  broadcastTo_apply x broadcasts_S1x64_S5000x64 j (ix2 0 (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The body's value at a position of the block. -/
theorem pay_apply (x0 : Vec Ideal S5000x64 .f32) (x2 : Vec Ideal S1x64 .f32) (j : S5000x64.Idx) :
    k6_pay1 (F := Ideal) x0 x2 j = Cert.Spec.lrelu (FloatOps.addf (F := Ideal) (φ := .f32) (x0 j) (x2 (ix2 0 (j 1)))) := by
  unfold k6_pay1
  simp only [shapeCast_self]
  rw [← bias_apply x2 j]
  rfl

/-- The windows' index maps over the ten grid points: the row-blocked windows sit at block row `t`, the bias row's
    at its one block. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- The epilogue of whole arrays, position by position. -/
def G (A : S50000x64.Idx → EReal) (B : S1x64.Idx → EReal) : S50000x64.Idx → EReal :=
  fun i => Cert.Spec.lrelu (FloatOps.addf (F := Ideal) (φ := .f32) (A i) (B (ix2 0 (i 1))))

/-- What grid point `t` writes back is row block `t` of the epilogue of the arrays the region found. -/
theorem flushed_eq (c : Dev nD) (t : Fin cfg6.N) :
    (dat6 V c).flushed 3 t = ((cfg6.win 3).blk t).view.read (Elt Ideal) (G (V c main_v81) (V c main_v83)) := by
  show (cfg6.win 3).cut (grid6.coords t) ((dat6 V c).after 3 t) = _
  rw [after6_3]
  unfold out6_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ j).trans ?_
  have h0 : iblk6 V c 0 t j = V c main_v81 (((cfg6.win 3).blk t).view.emb j) := by
    show V c main_v81 (((cfg6.win 0).blk t).view.emb j) = _
    refine congrArg (V c main_v81) (funext fun a => Fin.ext ?_)
    match a with
    | ⟨0, _⟩ => show win6_0.index t (0 : Fin 2) * 5000 + 1 * (j 0).val = win6_3.index t (0 : Fin 2) * 5000 + 1 * (j 0).val; omega
    | ⟨1, _⟩ => show win6_0.index t (1 : Fin 2) * 64 + 1 * (j 1).val = win6_3.index t (1 : Fin 2) * 64 + 1 * (j 1).val; omega
  have h1 : iblk6 V c 1 t (ix2 0 (j 1)) = V c main_v83 (ix2 0 ((((cfg6.win 3).blk t).view.emb j) 1)) := by
    show V c main_v83 (((cfg6.win 1).blk t).view.emb (ix2 0 (j 1))) = _
    refine congrArg (V c main_v83) (funext fun a => Fin.ext ?_)
    match a with
    | ⟨0, _⟩ => show win6_1.index t (0 : Fin 2) * 1 + 1 * (0 : Nat) = 0; omega
    | ⟨1, _⟩ => show win6_1.index t (1 : Fin 2) * 64 + 1 * (j 1).val = win6_3.index t (1 : Fin 2) * 64 + 1 * (j 1).val; omega
  rw [h0, h1]
  rfl

/-- A position of the output array lies in grid point `t`'s block iff each coordinate is in the block's range. -/
theorem mem_blk (t : Fin cfg6.N) (i : S50000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v84).slice (win6_3.rect t)).set ↔ _
  rw [View.set_slice_whole, Rect.mem_set_unit]
  exact Iff.rfl

/-- Every position of the output array is written: row `r` by grid point `r / 5000`. -/
theorem cover (i : S50000x64.Idx) : ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 10 := N_6
  have ht : (i 0).val / 5000 < cfg6.N := by show (i 0).val / 5000 < grid6.N; omega
  obtain ⟨e0, e1, e2, e3, e4, e5, e6, e7⟩ := idx_facts ⟨(i 0).val / 5000, ht⟩
  have e6' : win6_3.index ⟨(i 0).val / 5000, ht⟩ (0 : Fin 2) = (i 0).val / 5000 := e6
  refine ⟨⟨(i 0).val / 5000, ht⟩, flush6_3 _, ?_⟩
  rw [mem_blk]
  intro a
  match a with
  | ⟨0, _⟩ => show win6_3.index ⟨(i 0).val / 5000, ht⟩ (0 : Fin 2) * 5000 ≤ (i 0).val ∧ (i 0).val < win6_3.index ⟨(i 0).val / 5000, ht⟩ (0 : Fin 2) * 5000 + 5000; omega
  | ⟨1, _⟩ => show win6_3.index ⟨(i 0).val / 5000, ht⟩ (1 : Fin 2) * 64 ≤ (i 1).val ∧ (i 1).val < win6_3.index ⟨(i 0).val / 5000, ht⟩ (1 : Fin 2) * 64 + 64; omega

/-- THE OUTPUT ARRAY after the region: the epilogue of the arrays as the region found them. -/
theorem out_eq (c : Dev nD) : (dat6 V c).arrAt 3 cfg6.N = G (V c main_v81) (V c main_v83) :=
  (dat6 V c).arrAt_eq_of_cover 3 (G (V c main_v81) (V c main_v83)) (fun t _ => flushed_eq V c t) cover

end Cert.KernelIdeal.Post6

end
-- ==== Proof.Post8.lean ====
/-
  Region 8: the layer's epilogue on a block of 5000 rows per grid point — the aggregated array plus the bias row, plus the residual array.
  The body's one store writes the block; the ten row blocks tile the output array, so after the region the output
  array is that pointwise function of the arrays the region found, position by position.
-/
import proofs.«102883_j78546361909653_1_alg».proof.Proof.Gen.KernelIdeal.Frame
import proofs.«102883_j78546361909653_1_alg».proof.Proof.Spec
import Idealize.ShloMosaic.Lib.Pipeline.Value
import Idealize.ShloMosaic.Lib.ValueIdx

set_option maxRecDepth 16384

noncomputable section

namespace Cert.KernelIdeal.Post8

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row broadcast down the block's rows, at a position: the row's entry in that column. -/
theorem bias_apply (x : Vec Ideal S1x64 .f32) (j : S5000x64.Idx) :
    broadcastTo S5000x64 x broadcasts_S1x64_S5000x64 j = x (ix2 0 (j 1)) :=
  broadcastTo_apply x broadcasts_S1x64_S5000x64 j (ix2 0 (j 1)) (fun a => match a with
    | ⟨0, _⟩ => by show (0 : Nat) = if (1 : Nat) = 1 then 0 else (j 0).val; rw [if_pos rfl]
    | ⟨1, _⟩ => by show (j 1).val = if (64 : Nat) = 1 then 0 else (j 1).val; rw [if_neg (by decide)])

/-- The body's value at a position of the block. -/
theorem pay_apply (x0 : Vec Ideal S5000x64 .f32) (x2 : Vec Ideal S1x64 .f32) (x3 : Vec Ideal S5000x64 .f32) (j : S5000x64.Idx) :
    k8_pay1 (F := Ideal) x0 x2 x3 j = FloatOps.addf (F := Ideal) (φ := .f32) (FloatOps.addf (F := Ideal) (φ := .f32) (x0 j) (x2 (ix2 0 (j 1)))) (x3 j) := by
  unfold k8_pay1
  simp only [shapeCast_self]
  rw [← bias_apply x2 j]
  rfl

/-- The windows' index maps over the ten grid points: the row-blocked windows sit at block row `t`, the bias row's
    at its one block. -/
theorem idx_facts : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0 :=
  (by decide +kernel : ∀ t : Fin grid8.N, _)

/-- The epilogue of whole arrays, position by position. -/
def G (A : S50000x64.Idx → EReal) (B : S1x64.Idx → EReal) (R : S50000x64.Idx → EReal) : S50000x64.Idx → EReal :=
  fun i => FloatOps.addf (F := Ideal) (φ := .f32) (FloatOps.addf (F := Ideal) (φ := .f32) (A i) (B (ix2 0 (i 1)))) (R i)

/-- What grid point `t` writes back is row block `t` of the epilogue of the arrays the region found. -/
theorem flushed_eq (c : Dev nD) (t : Fin cfg8.N) :
    (dat8 V c).flushed 3 t = ((cfg8.win 3).blk t).view.read (Elt Ideal) (G (V c main_v98) (V c main_v99) (V c main_v67)) := by
  show (cfg8.win 3).cut (grid8.coords t) ((dat8 V c).after 3 t) = _
  rw [after8_3]
  unfold out8_3
  rw [View.canon_unit_zero hz]
  simp only [View.ld_unit_zero (S := S5000x64) hz, View.ld_unit_zero (S := S1x64) hz]
  obtain ⟨e0, e1, e2, e3, e4, e5, e6, e7⟩ := idx_facts t
  funext j
  refine (pay_apply _ _ _ j).trans ?_
  have h0 : iblk8 V c 0 t j = V c main_v98 (((cfg8.win 3).blk t).view.emb j) := by
    show V c main_v98 (((cfg8.win 0).blk t).view.emb j) = _
    refine congrArg (V c main_v98) (funext fun a => Fin.ext ?_)
    match a with
    | ⟨0, _⟩ => show win8_0.index t (0 : Fin 2) * 5000 + 1 * (j 0).val = win8_3.index t (0 : Fin 2) * 5000 + 1 * (j 0).val; omega
    | ⟨1, _⟩ => show win8_0.index t (1 : Fin 2) * 64 + 1 * (j 1).val = win8_3.index t (1 : Fin 2) * 64 + 1 * (j 1).val; omega
  have h1 : iblk8 V c 1 t (ix2 0 (j 1)) = V c main_v99 (ix2 0 ((((cfg8.win 3).blk t).view.emb j) 1)) := by
    show V c main_v99 (((cfg8.win 1).blk t).view.emb (ix2 0 (j 1))) = _
    refine congrArg (V c main_v99) (funext fun a => Fin.ext ?_)
    match a with
    | ⟨0, _⟩ => show win8_1.index t (0 : Fin 2) * 1 + 1 * (0 : Nat) = 0; omega
    | ⟨1, _⟩ => show win8_1.index t (1 : Fin 2) * 64 + 1 * (j 1).val = win8_3.index t (1 : Fin 2) * 64 + 1 * (j 1).val; omega
  have h2 : iblk8 V c 2 t j = V c main_v67 (((cfg8.win 3).blk t).view.emb j) := by
    show V c main_v67 (((cfg8.win 2).blk t).view.emb j) = _
    refine congrArg (V c main_v67) (funext fun a => Fin.ext ?_)
    match a with
    | ⟨0, _⟩ => show win8_2.index t (0 : Fin 2) * 5000 + 1 * (j 0).val = win8_3.index t (0 : Fin 2) * 5000 + 1 * (j 0).val; omega
    | ⟨1, _⟩ => show win8_2.index t (1 : Fin 2) * 64 + 1 * (j 1).val = win8_3.index t (1 : Fin 2) * 64 + 1 * (j 1).val; omega
  rw [h0, h1, h2]
  rfl

/-- A position of the output array lies in grid point `t`'s block iff each coordinate is in the block's range. -/
theorem mem_blk (t : Fin cfg8.N) (i : S50000x64.Idx) :
    i ∈ ((cfg8.win 3).blk t).view.set ↔ ∀ a : Fin 2, win8_3.index t a * S5000x64.size a ≤ (i a).val ∧ (i a).val < win8_3.index t a * S5000x64.size a + S5000x64.size a := by
  show i ∈ ((View.whole main_v100).slice (win8_3.rect t)).set ↔ _
  rw [View.set_slice_whole, Rect.mem_set_unit]
  exact Iff.rfl

/-- Every position of the output array is written: row `r` by grid point `r / 5000`. -/
theorem cover (i : S50000x64.Idx) : ∃ t : Fin cfg8.N, (cfg8.win 3).flush t = true ∧ i ∈ ((cfg8.win 3).blk t).view.set := by
  have hi0 : (i 0).val < 50000 := (i 0).isLt
  have hi1 : (i 1).val < 64 := (i 1).isLt
  have hN : grid8.N = 10 := N_8
  have ht : (i 0).val / 5000 < cfg8.N := by show (i 0).val / 5000 < grid8.N; omega
  obtain ⟨e0, e1, e2, e3, e4, e5, e6, e7⟩ := idx_facts ⟨(i 0).val / 5000, ht⟩
  have e6' : win8_3.index ⟨(i 0).val / 5000, ht⟩ (0 : Fin 2) = (i 0).val / 5000 := e6
  refine ⟨⟨(i 0).val / 5000, ht⟩, flush8_3 _, ?_⟩
  rw [mem_blk]
  intro a
  match a with
  | ⟨0, _⟩ => show win8_3.index ⟨(i 0).val / 5000, ht⟩ (0 : Fin 2) * 5000 ≤ (i 0).val ∧ (i 0).val < win8_3.index ⟨(i 0).val / 5000, ht⟩ (0 : Fin 2) * 5000 + 5000; omega
  | ⟨1, _⟩ => show win8_3.index ⟨(i 0).val / 5000, ht⟩ (1 : Fin 2) * 64 ≤ (i 1).val ∧ (i 1).val < win8_3.index ⟨(i 0).val / 5000, ht⟩ (1 : Fin 2) * 64 + 64; omega

/-- THE OUTPUT ARRAY after the region: the epilogue of the arrays as the region found them. -/
theorem out_eq (c : Dev nD) : (dat8 V c).arrAt 3 cfg8.N = G (V c main_v98) (V c main_v99) (V c main_v67) :=
  (dat8 V c).arrAt_eq_of_cover 3 (G (V c main_v98) (V c main_v99) (V c main_v67)) (fun t _ => flushed_eq V c t) cover

end Cert.KernelIdeal.Post8

end
-- ==== Proof.Final9.lean ====
/-
  Region 9: the last linear map on a block of 5000 rows per grid point — at row `r` and column `s` the sum over
  `k < 64` of the input at `(r, k)` times the [64, 2] matrix at `(k, s)`, plus the bias row at `s`.  The ten row
  blocks tile the output array, so after the region the output array is that function of the arrays the region found.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Final9

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The bias row broadcast down the rows, at a position: the row's entry in that column. -/
theorem bias_apply (x : Vec Ideal S1x2 .f32) (j : S5000x2.Idx) :
    broadcastTo S5000x2 x broadcasts_S1x2_S5000x2 j = x (ix2 0 (j 1)) :=
  broadcastTo_apply x broadcasts_S1x2_S5000x2 j (ix2 0 (j 1)) (fun a => match a with
    | ⟨0, _⟩ => by show (0 : Nat) = if (1 : Nat) = 1 then 0 else (j 0).val; rw [if_pos rfl]
    | ⟨1, _⟩ => by show (j 1).val = if (2 : Nat) = 1 then 0 else (j 1).val; rw [if_neg (by decide)])

/-- The body's value at a position of the block. -/
theorem pay_apply (x0 : Vec Ideal S5000x64 .f32) (x1 : Vec Ideal S64x2 .f32) (x2 : Vec Ideal S1x2 .f32) (j : S5000x2.Idx) :
    k9_pay1 (F := Ideal) x0 x1 x2 j
      = FloatOps.addf (F := Ideal) (φ := .f32) (∑ k : Fin 64, x0 (ix2 (j 0) k) * x1 (ix2 k (j 1))) (x2 (ix2 0 (j 1))) := by
  unfold k9_pay1
  simp only [shapeCast_self]
  refine congrArg₂ (FloatOps.addf (F := Ideal) (φ := .f32)) ?_ (bias_apply x2 j)
  exact MatmulAt.d_apply _ _ j

/-- The windows' index maps over the ten grid points. -/
theorem idx_facts : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The linear map of whole arrays, position by position. -/
def G (X : S50000x64.Idx → EReal) (W : S64x2.Idx → EReal) (B : S1x2.Idx → EReal) : S50000x2.Idx → EReal :=
  fun i => FloatOps.addf (F := Ideal) (φ := .f32) (∑ k : Fin 64, X (ix2 (i 0) k) * W (ix2 k (i 1))) (B (ix2 0 (i 1)))

/-- What grid point `t` writes back is row block `t` of the linear map of the arrays the region found. -/
theorem flushed_eq (c : Dev nD) (t : Fin cfg9.N) :
    (dat9 V c).flushed 3 t = ((cfg9.win 3).blk t).view.read (Elt Ideal) (G (V c main_v100) (V c main_arg14) (V c main_v101)) := by
  show (cfg9.win 3).cut (grid9.coords t) ((dat9 V c).after 3 t) = _
  rw [after9_3]
  unfold out9_3
  rw [View.canon_unit_zero hz]
  simp only [View.ld_unit_zero (S := S5000x64) hz, View.ld_unit_zero (S := S64x2) hz, View.ld_unit_zero (S := S1x2) hz]
  obtain ⟨e0, e1, e2, e3, e4, e5, e6, e7⟩ := idx_facts t
  funext j
  refine (pay_apply _ _ _ j).trans ?_
  have hX : (fun k : Fin 64 => iblk9 V c 0 t (ix2 (j 0) k)) = fun k => V c main_v100 (ix2 ((((cfg9.win 3).blk t).view.emb j) 0) k) := funext fun k => by
    show V c main_v100 (((cfg9.win 0).blk t).view.emb (ix2 (j 0) k)) = _
    refine congrArg (V c main_v100) (funext fun a => Fin.ext ?_)
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 64 + 1 * k.val = k.val; omega
  have eW : (iblk9 V c 1 t : S64x2.Idx → EReal) = V c main_arg14 := funext fun y => by
    show V c main_arg14 (((cfg9.win 1).blk t).view.emb y) = _
    refine congrArg (V c main_arg14) (funext fun a => Fin.ext ?_)
    match a with
    | ⟨0, _⟩ => show win9_1.index t (0 : Fin 2) * 64 + 1 * (y 0).val = (y 0).val; omega
    | ⟨1, _⟩ => show win9_1.index t (1 : Fin 2) * 2 + 1 * (y 1).val = (y 1).val; omega
  have eB : (iblk9 V c 2 t : S1x2.Idx → EReal) = V c main_v101 := funext fun y => by
    show V c main_v101 (((cfg9.win 2).blk t).view.emb y) = _
    refine congrArg (V c main_v101) (funext fun a => Fin.ext ?_)
    match a with
    | ⟨0, _⟩ => show win9_2.index t (0 : Fin 2) * 1 + 1 * (y 0).val = (y 0).val; omega
    | ⟨1, _⟩ => show win9_2.index t (1 : Fin 2) * 2 + 1 * (y 1).val = (y 1).val; omega
  have hc1 : ((((cfg9.win 3).blk t).view.emb j) 1) = j 1 := Fin.ext (by
    show win9_3.index t (1 : Fin 2) * 2 + 1 * (j 1).val = (j 1).val; omega)
  have hB : ∀ s : Fin 2, iblk9 V c 2 t (ix2 0 s) = V c main_v101 (ix2 0 s) := fun s => congrFun eB _
  have hW : ∀ (k : Fin 64) (s : Fin 2), iblk9 V c 1 t (ix2 k s) = V c main_arg14 (ix2 k s) := fun k s => congrFun eW _
  show _ = G (V c main_v100) (V c main_arg14) (V c main_v101) (((cfg9.win 3).blk t).view.emb j)
  unfold G
  rw [hc1]
  exact congrArg₂ (FloatOps.addf (F := Ideal) (φ := .f32))
    (Finset.sum_congr rfl fun k _ => congrArg₂ (fun a b : EReal => a * b) (congrFun hX k) (hW k (j 1))) (hB (j 1))

/-- A position of the output array lies in grid point `t`'s block iff each coordinate is in the block's range. -/
theorem mem_blk (t : Fin cfg9.N) (i : S50000x2.Idx) :
    i ∈ ((cfg9.win 3).blk t).view.set ↔ ∀ a : Fin 2, win9_3.index t a * S5000x2.size a ≤ (i a).val ∧ (i a).val < win9_3.index t a * S5000x2.size a + S5000x2.size a := by
  show i ∈ ((View.whole main_v102).slice (win9_3.rect t)).set ↔ _
  rw [View.set_slice_whole, Rect.mem_set_unit]
  exact Iff.rfl

/-- Every position of the output array is written: row `r` by grid point `r / 5000`. -/
theorem cover (i : S50000x2.Idx) : ∃ t : Fin cfg9.N, (cfg9.win 3).flush t = true ∧ i ∈ ((cfg9.win 3).blk t).view.set := by
  have hi0 : (i 0).val < 50000 := (i 0).isLt
  have hi1 : (i 1).val < 2 := (i 1).isLt
  have hN : grid9.N = 10 := N_9
  have ht : (i 0).val / 5000 < cfg9.N := by show (i 0).val / 5000 < grid9.N; omega
  obtain ⟨e0, e1, e2, e3, e4, e5, e6, e7⟩ := idx_facts ⟨(i 0).val / 5000, ht⟩
  have e6' : win9_3.index ⟨(i 0).val / 5000, ht⟩ (0 : Fin 2) = (i 0).val / 5000 := e6
  refine ⟨⟨(i 0).val / 5000, ht⟩, flush9_3 _, ?_⟩
  rw [mem_blk]
  intro a
  match a with
  | ⟨0, _⟩ => show win9_3.index ⟨(i 0).val / 5000, ht⟩ (0 : Fin 2) * 5000 ≤ (i 0).val ∧ (i 0).val < win9_3.index ⟨(i 0).val / 5000, ht⟩ (0 : Fin 2) * 5000 + 5000; omega
  | ⟨1, _⟩ => show win9_3.index ⟨(i 0).val / 5000, ht⟩ (1 : Fin 2) * 2 ≤ (i 1).val ∧ (i 1).val < win9_3.index ⟨(i 0).val / 5000, ht⟩ (1 : Fin 2) * 2 + 2; omega

/-- THE OUTPUT ARRAY after the region: the linear map of the arrays as the region found them. -/
theorem out_eq (c : Dev nD) : (dat9 V c).arrAt 3 cfg9.N = G (V c main_v100) (V c main_arg14) (V c main_v101) :=
  (dat9 V c).arrAt_eq_of_cover 3 _ (fun t _ => flushed_eq V c t) cover

end Cert.KernelIdeal.Final9

end
-- ==== Proof.Bridge.lean ====
/-
  The kernels' closed forms against the reference's stages, as whole arrays at the ideal instance.
  Each region of the kernel program computes what one group of the reference's host operations computes:
  the perceptron (two `dot_general`s, two bias broadcasts, a rectifier), a layer's linear map (`dot_general`), a
  layer's epilogue (bias broadcast, the leaky rectifier spelt compare / multiply / select, the residual sum), and the
  last linear map.  The sums over the contracted axis are the same sums; a bias reshaped to a row and broadcast down
  the rows inside a kernel is the reference's two `broadcast_in_dim`s; the literals are the same words.
-/
import proofs.«102883_j78546361909653_1_alg».proof.Proof.RefReadP
import proofs.«102883_j78546361909653_1_alg».proof.Proof.RefDotAt
import proofs.«102883_j78546361909653_1_alg».proof.Proof.Mlp0
import proofs.«102883_j78546361909653_1_alg».proof.Proof.Linear1
import proofs.«102883_j78546361909653_1_alg».proof.Proof.Post2
import proofs.«102883_j78546361909653_1_alg».proof.Proof.Post4
import proofs.«102883_j78546361909653_1_alg».proof.Proof.Post6
import proofs.«102883_j78546361909653_1_alg».proof.Proof.Post8
import proofs.«102883_j78546361909653_1_alg».proof.Proof.Final9
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal Cert.ReferenceIdeal.Gen Cert.ReferenceIdeal.ReadP

/-! ## A bias vector as a row, and as the reference broadcasts it -/

/-- A length-32 vector reshaped to a [1, 32] row, at column `s`. -/
theorem row32 (b : S32.Idx → EReal) (s : Fin 32) :
    shapeCast Cert.KernelIdeal.S1x32 b Cert.KernelIdeal.Facts₀.shapeCasts_S32_S1x32 (ix2 0 s) = b (ix1 s) :=
  (shapeCast_addUnit_apply ![32] b Cert.KernelIdeal.Facts₀.shapeCasts_S32_S1x32 (ix2 0 s)).trans (congrArg b (funext fun a => match a with | ⟨0, _⟩ => rfl))
/-- A length-64 vector reshaped to a [1, 64] row, at column `s`. -/
theorem row64 (b : S64.Idx → EReal) (s : Fin 64) :
    shapeCast Cert.KernelIdeal.S1x64 b Cert.KernelIdeal.Facts₀.shapeCasts_S64_S1x64 (ix2 0 s) = b (ix1 s) :=
  (shapeCast_addUnit_apply ![64] b Cert.KernelIdeal.Facts₀.shapeCasts_S64_S1x64 (ix2 0 s)).trans (congrArg b (funext fun a => match a with | ⟨0, _⟩ => rfl))
/-- A length-2 vector reshaped to a [1, 2] row, at column `s`. -/
theorem row2 (b : S2.Idx → EReal) (s : Fin 2) :
    shapeCast Cert.KernelIdeal.S1x2 b Cert.KernelIdeal.Facts₀.shapeCasts_S2_S1x2 (ix2 0 s) = b (ix1 s) :=
  (shapeCast_addUnit_apply ![2] b Cert.KernelIdeal.Facts₀.shapeCasts_S2_S1x2 (ix2 0 s)).trans (congrArg b (funext fun a => match a with | ⟨0, _⟩ => rfl))

/-- The reference's bias broadcast (`v19` over `v18`) at a position: the bias entry of that column. -/
theorem v19_at (b : S32.Idx → EReal) (j : S50000x32.Idx) : val_main_v19 (F := Ideal) b j = b (ix1 (j 1)) := by
  rw [val_main_v19_apply, val_main_v18_apply]
  exact congrArg b (funext fun a => match a with | ⟨0, _⟩ => rfl)

/-- The reference's bias broadcast (`v24` over `v23`) at a position: the bias entry of that column. -/
theorem v24_at (b : S64.Idx → EReal) (j : S50000x64.Idx) : val_main_v24 (F := Ideal) b j = b (ix1 (j 1)) := by
  rw [val_main_v24_apply, val_main_v23_apply]
  exact congrArg b (funext fun a => match a with | ⟨0, _⟩ => rfl)

/-- The reference's bias broadcast (`v56` over `v55`) at a position: the bias entry of that column. -/
theorem v56_at (b : S64.Idx → EReal) (j : S50000x64.Idx) : val_main_v56 (F := Ideal) b j = b (ix1 (j 1)) := by
  rw [val_main_v56_apply, val_main_v55_apply]
  exact congrArg b (funext fun a => match a with | ⟨0, _⟩ => rfl)

/-- The reference's bias broadcast (`v93` over `v92`) at a position: the bias entry of that column. -/
theorem v93_at (b : S64.Idx → EReal) (j : S50000x64.Idx) : val_main_v93 (F := Ideal) b j = b (ix1 (j 1)) := by
  rw [val_main_v93_apply, val_main_v92_apply]
  exact congrArg b (funext fun a => match a with | ⟨0, _⟩ => rfl)

/-- The reference's bias broadcast (`v131` over `v130`) at a position: the bias entry of that column. -/
theorem v131_at (b : S64.Idx → EReal) (j : S50000x64.Idx) : val_main_v131 (F := Ideal) b j = b (ix1 (j 1)) := by
  rw [val_main_v131_apply, val_main_v130_apply]
  exact congrArg b (funext fun a => match a with | ⟨0, _⟩ => rfl)

/-- The reference's bias broadcast (`v168` over `v167`) at a position: the bias entry of that column. -/
theorem v168_at (b : S64.Idx → EReal) (j : S50000x64.Idx) : val_main_v168 (F := Ideal) b j = b (ix1 (j 1)) := by
  rw [val_main_v168_apply, val_main_v167_apply]
  exact congrArg b (funext fun a => match a with | ⟨0, _⟩ => rfl)

/-- The reference's bias broadcast (`v173` over `v172`) at a position: the bias entry of that column. -/
theorem v173_at (b : S2.Idx → EReal) (j : S50000x2.Idx) : val_main_v173 (F := Ideal) b j = b (ix1 (j 1)) := by
  rw [val_main_v173_apply, val_main_v172_apply]
  exact congrArg b (funext fun a => match a with | ⟨0, _⟩ => rfl)

/-! ## The reference's splat literals at a position -/

theorem v58_at (j : S50000x64.Idx) : val_main_v58 (F := Ideal) j = FloatOps.ofBits (F := Ideal) .f32 0x00000000#32 := by
  rw [val_main_v58_apply, val_main_cst_10_apply]

theorem v60_at (j : S50000x64.Idx) : val_main_v60 (F := Ideal) j = FloatOps.ofBits (F := Ideal) .f32 0x3E4CCCCD#32 := by
  rw [val_main_v60_apply, val_main_cst_11_apply]

theorem v95_at (j : S50000x64.Idx) : val_main_v95 (F := Ideal) j = FloatOps.ofBits (F := Ideal) .f32 0x00000000#32 := by
  rw [val_main_v95_apply, val_main_cst_19_apply]

theorem v97_at (j : S50000x64.Idx) : val_main_v97 (F := Ideal) j = FloatOps.ofBits (F := Ideal) .f32 0x3E4CCCCD#32 := by
  rw [val_main_v97_apply, val_main_cst_20_apply]

theorem v133_at (j : S50000x64.Idx) : val_main_v133 (F := Ideal) j = FloatOps.ofBits (F := Ideal) .f32 0x00000000#32 := by
  rw [val_main_v133_apply, val_main_cst_28_apply]

theorem v135_at (j : S50000x64.Idx) : val_main_v135 (F := Ideal) j = FloatOps.ofBits (F := Ideal) .f32 0x3E4CCCCD#32 := by
  rw [val_main_v135_apply, val_main_cst_29_apply]
theorem relu0_at (j : S50000x32.Idx) : val_main_call1_v0 (F := Ideal) j = FloatOps.ofBits (F := Ideal) .f32 0x00000000#32 := by
  rw [val_main_call1_v0_apply, val_main_call1_cst_apply]

/-! ## The perceptron -/

/-- Region 0's closed form of the arrays is the reference's stage `%25`. -/
theorem mlp (x0 : (⟨S50000x128, .f32⟩ : BufTy).Contents (Elt Ideal)) (x2 : (⟨S128x32, .f32⟩ : BufTy).Contents (Elt Ideal)) (x3 : (⟨S32, .f32⟩ : BufTy).Contents (Elt Ideal)) (x4 : (⟨S32x64, .f32⟩ : BufTy).Contents (Elt Ideal)) (x5 : (⟨S64, .f32⟩ : BufTy).Contents (Elt Ideal)) :
    Cert.KernelIdeal.Mlp0.G x0 x2 (shapeCast Cert.KernelIdeal.S1x32 x3 Cert.KernelIdeal.Facts₀.shapeCasts_S32_S1x32) x4 (shapeCast Cert.KernelIdeal.S1x64 x5 Cert.KernelIdeal.Facts₀.shapeCasts_S64_S1x64)
      = val_main_v25 (F := Ideal) x0 x2 x3 x4 x5 := by
  funext i
  rw [val_main_v25_apply]
  unfold Cert.KernelIdeal.Mlp0.G
  refine congrArg₂ (FloatOps.addf (F := Ideal) (φ := .f32)) ?_ ((row64 x5 (i 1)).trans (v24_at x5 i).symm)
  refine ((Finset.sum_congr rfl fun k _ => ?_) :
      _ = ∑ k : Fin 32, (val_main_v21 (F := Ideal) x0 x2 x3 (ix2 (i 0) k) : EReal) * (x4 (ix2 k (i 1)) : EReal)).trans (DotAt.b_apply _ _ i).symm
  refine congrArg₂ (fun a b : EReal => a * b) ?_ rfl
  rw [val_main_v21_apply, val_main_v20_apply, relu0_at]
  unfold Cert.KernelIdeal.Mlp0.hidden
  refine congrArg₂ (FloatOps.maximumf (F := Ideal) (φ := .f32)) (congrArg₂ (FloatOps.addf (F := Ideal) (φ := .f32)) ?_ ?_) rfl
  · exact (DotAt.a_apply x0 x2 (ix2 (i 0) k)).symm
  · exact (row32 x3 k).trans (v19_at x3 (ix2 (i 0) k)).symm

/-! ## A layer's linear map -/

/-- The product of a [50000, 64] array and a [64, 64] matrix, position by position, is the host's `dot_general`. -/
theorem linear (X : S50000x64.Idx → EReal) (W : S64x64.Idx → EReal) :
    (fun i : S50000x64.Idx => ∑ k : Fin 64, (X (ix2 (i 0) k) : EReal) * (W (ix2 k (i 1)) : EReal))
      = Host.dotGeneral (F := Ideal) (φ₁ := .f32) (φ₂ := .f32) dot_S50000x64_S64x64_S50000x64_1_0_0_1_n_n none X W :=
  funext fun i => (DotAt.c_apply X W i).symm

/-! ## The layers' epilogues -/

/-- The epilogue of region 2 in the reference's words: the same pointwise function, its bias row and its two
    literals spelt as the reference's broadcasts. -/
theorem post1 (A : S50000x64.Idx → EReal) (b : S64.Idx → EReal) :
    Cert.KernelIdeal.Post2.G A (shapeCast Cert.KernelIdeal.S1x64 b Cert.KernelIdeal.Facts₀.shapeCasts_S64_S1x64)
      = select (cmpf (F := Ideal) (φ := .f32) .oge (addf (F := Ideal) (φ := .f32) A (val_main_v56 (F := Ideal) b)) (val_main_v58 (F := Ideal))) (addf (F := Ideal) (φ := .f32) A (val_main_v56 (F := Ideal) b))
          (mulf (F := Ideal) (φ := .f32) (val_main_v60 (F := Ideal)) (addf (F := Ideal) (φ := .f32) A (val_main_v56 (F := Ideal) b))) := by
  funext i
  have e1 : shapeCast Cert.KernelIdeal.S1x64 b Cert.KernelIdeal.Facts₀.shapeCasts_S64_S1x64 (ix2 0 (i 1)) = val_main_v56 (F := Ideal) b i :=
    (row64 b (i 1)).trans (v56_at b i).symm
  have e2 := v58_at i
  have e3 := v60_at i
  simp only [Cert.KernelIdeal.Post2.G, Cert.Spec.lrelu]
  rw [e1, ← e2, ← e3]
  rfl

/-- The epilogue of region 4 in the reference's words: the same pointwise function, its bias row and its two
    literals spelt as the reference's broadcasts. -/
theorem post2 (A : S50000x64.Idx → EReal) (b : S64.Idx → EReal) (Rr : S50000x64.Idx → EReal) :
    Cert.KernelIdeal.Post4.G A (shapeCast Cert.KernelIdeal.S1x64 b Cert.KernelIdeal.Facts₀.shapeCasts_S64_S1x64) Rr
      = addf (F := Ideal) (φ := .f32) (select (cmpf (F := Ideal) (φ := .f32) .oge (addf (F := Ideal) (φ := .f32) A (val_main_v93 (F := Ideal) b)) (val_main_v95 (F := Ideal))) (addf (F := Ideal) (φ := .f32) A (val_main_v93 (F := Ideal) b))
          (mulf (F := Ideal) (φ := .f32) (val_main_v97 (F := Ideal)) (addf (F := Ideal) (φ := .f32) A (val_main_v93 (F := Ideal) b)))) Rr := by
  funext i
  have e1 : shapeCast Cert.KernelIdeal.S1x64 b Cert.KernelIdeal.Facts₀.shapeCasts_S64_S1x64 (ix2 0 (i 1)) = val_main_v93 (F := Ideal) b i :=
    (row64 b (i 1)).trans (v93_at b i).symm
  have e2 := v95_at i
  have e3 := v97_at i
  simp only [Cert.KernelIdeal.Post4.G, Cert.Spec.lrelu]
  rw [e1, ← e2, ← e3]
  rfl

/-- The epilogue of region 6 in the reference's words: the same pointwise function, its bias row and its two
    literals spelt as the reference's broadcasts. -/
theorem post3 (A : S50000x64.Idx → EReal) (b : S64.Idx → EReal) :
    Cert.KernelIdeal.Post6.G A (shapeCast Cert.KernelIdeal.S1x64 b Cert.KernelIdeal.Facts₀.shapeCasts_S64_S1x64)
      = select (cmpf (F := Ideal) (φ := .f32) .oge (addf (F := Ideal) (φ := .f32) A (val_main_v131 (F := Ideal) b)) (val_main_v133 (F := Ideal))) (addf (F := Ideal) (φ := .f32) A (val_main_v131 (F := Ideal) b))
          (mulf (F := Ideal) (φ := .f32) (val_main_v135 (F := Ideal)) (addf (F := Ideal) (φ := .f32) A (val_main_v131 (F := Ideal) b))) := by
  funext i
  have e1 : shapeCast Cert.KernelIdeal.S1x64 b Cert.KernelIdeal.Facts₀.shapeCasts_S64_S1x64 (ix2 0 (i 1)) = val_main_v131 (F := Ideal) b i :=
    (row64 b (i 1)).trans (v131_at b i).symm
  have e2 := v133_at i
  have e3 := v135_at i
  simp only [Cert.KernelIdeal.Post6.G, Cert.Spec.lrelu]
  rw [e1, ← e2, ← e3]
  rfl

/-- The epilogue of region 8 (no rectifier) in the reference's words. -/
theorem post4 (A : S50000x64.Idx → EReal) (b : S64.Idx → EReal) (Rr : S50000x64.Idx → EReal) :
    Cert.KernelIdeal.Post8.G A (shapeCast Cert.KernelIdeal.S1x64 b Cert.KernelIdeal.Facts₀.shapeCasts_S64_S1x64) Rr = addf (F := Ideal) (φ := .f32) (addf (F := Ideal) (φ := .f32) A (val_main_v168 (F := Ideal) b)) Rr := by
  funext i
  have e1 : shapeCast Cert.KernelIdeal.S1x64 b Cert.KernelIdeal.Facts₀.shapeCasts_S64_S1x64 (ix2 0 (i 1)) = val_main_v168 (F := Ideal) b i :=
    (row64 b (i 1)).trans (v168_at b i).symm
  simp only [Cert.KernelIdeal.Post8.G]
  rw [e1]
  rfl

/-! ## The last linear map -/

/-- Region 9's closed form is the host's `dot_general` plus the reference's bias broadcast. -/
theorem final (X : S50000x64.Idx → EReal) (W : S64x2.Idx → EReal) (b : S2.Idx → EReal) :
    Cert.KernelIdeal.Final9.G X W (shapeCast Cert.KernelIdeal.S1x2 b Cert.KernelIdeal.Facts₀.shapeCasts_S2_S1x2)
      = addf (F := Ideal) (φ := .f32) (Host.dotGeneral (F := Ideal) (φ₁ := .f32) (φ₂ := .f32) dot_S50000x64_S64x2_S50000x2_1_0_0_1_n_n none X W) (val_main_v173 (F := Ideal) b) := by
  funext i
  unfold Cert.KernelIdeal.Final9.G
  exact congrArg₂ (FloatOps.addf (F := Ideal) (φ := .f32)) (DotAt.d_apply X W i).symm ((row2 b (i 1)).trans (v173_at b i).symm)

end Cert.Bridge

end
-- ==== Proof.Linear3.lean ====
/-
  Region 3: a block of 5000 rows of a [50000, 64] array times a [64, 64] matrix, per grid point.
  The body's one store writes the block's product; the ten row blocks tile the output array, so after the region the
  output array is, at row `r` and column `s`, the sum over `k < 64` of the input array at `(r, k)` times the
  matrix at `(k, s)` — whatever the region found in its input arrays.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Linear3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at a position of the block: the row of the loaded block against the column of the matrix
    (the changes of float format are the identity at the ideal instance). -/
theorem pay_apply (x0 : Vec Ideal S5000x64 .f32) (x1 : Vec Ideal S64x64 .f32) (j : S5000x64.Idx) :
    k3_pay1 (F := Ideal) x0 x1 j = ∑ k : Fin 64, x0 (ix2 (j 0) k) * x1 (ix2 k (j 1)) := by
  unfold k3_pay1
  refine (MatmulAt.c_apply _ _ j).trans ?_
  refine Finset.sum_congr rfl fun k _ => ?_
  rw [truncf_apply, truncf_apply, shapeCast_self]

/-- The windows' index maps over the ten grid points: the row-blocked windows sit at block row `t`, the matrix's at
    its one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The product of a [50000, 64] array and a [64, 64] matrix, position by position. -/
def G (X : S50000x64.Idx → EReal) (W : S64x64.Idx → EReal) : S50000x64.Idx → EReal :=
  fun i => ∑ k : Fin 64, X (ix2 (i 0) k) * W (ix2 k (i 1))

/-- What grid point `t` writes back is row block `t` of the product of the arrays the region found. -/
theorem flushed_eq (c : Dev nD) (t : Fin cfg3.N) :
    (dat3 V c).flushed 2 t = ((cfg3.win 2).blk t).view.read (Elt Ideal) (G (V c main_v51) (V c main_arg8)) := by
  show (cfg3.win 2).cut (grid3.coords t) ((dat3 V c).after 2 t) = _
  rw [after3_2]
  unfold out3_2
  rw [View.canon_unit_zero hz]
  simp only [View.ld_unit_zero (S := S5000x64) hz, View.ld_unit_zero (S := S64x64) hz]
  obtain ⟨e0, e1, e2, e3, e4, e5⟩ := idx_facts t
  funext j
  refine (pay_apply _ _ j).trans ?_
  show _ = G (V c main_v51) (V c main_arg8) (((cfg3.win 2).blk t).view.emb j)
  simp only [G]
  refine Finset.sum_congr rfl fun k _ => ?_
  have h0 : iblk3 V c 0 t (ix2 (j 0) k) = V c main_v51 (ix2 ((((cfg3.win 2).blk t).view.emb j) 0) k) := by
    show V c main_v51 (((cfg3.win 0).blk t).view.emb (ix2 (j 0) k)) = _
    refine congrArg (V c main_v51) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  have h1 : iblk3 V c 1 t (ix2 k (j 1)) = V c main_arg8 (ix2 k ((((cfg3.win 2).blk t).view.emb j) 1)) := by
    show V c main_arg8 (((cfg3.win 1).blk t).view.emb (ix2 k (j 1))) = _
    refine congrArg (V c main_arg8) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  exact congrArg₂ (fun a b : EReal => a * b) h0 h1

/-- A position of the output array lies in grid point `t`'s block iff each coordinate is in the block's range. -/
theorem mem_blk (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v52).slice (win3_2.rect t)).set ↔ _
  rw [View.set_slice_whole, Rect.mem_set_unit]
  exact Iff.rfl

/-- Every position of the output array is written: row `r` by grid point `r / 5000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : grid3.N = 10 := N_3
  have ht : (i 0).val / 5000 < cfg3.N := by show (i 0).val / 5000 < grid3.N; omega
  obtain ⟨e0, e1, e2, e3, e4, e5⟩ := idx_facts ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk]
  intro a
  match a with
  | ⟨0, _⟩ => show win3_2.index ⟨(i 0).val / 5000, ht⟩ (0 : Fin 2) * 5000 ≤ (i 0).val ∧ (i 0).val < win3_2.index ⟨(i 0).val / 5000, ht⟩ (0 : Fin 2) * 5000 + 5000; omega
  | ⟨1, _⟩ => show win3_2.index ⟨(i 0).val / 5000, ht⟩ (1 : Fin 2) * 64 ≤ (i 1).val ∧ (i 1).val < win3_2.index ⟨(i 0).val / 5000, ht⟩ (1 : Fin 2) * 64 + 64; omega

/-- THE OUTPUT ARRAY after the region: the product of the input array and the matrix as the region found them. -/
theorem out_eq (c : Dev nD) : (dat3 V c).arrAt 2 cfg3.N = G (V c main_v51) (V c main_arg8) :=
  (dat3 V c).arrAt_eq_of_cover 2 (G (V c main_v51) (V c main_arg8)) (fun t _ => flushed_eq V c t) cover

end Cert.KernelIdeal.Linear3

end
-- ==== Proof.Linear5.lean ====
/-
  Region 5: a block of 5000 rows of a [50000, 64] array times a [64, 64] matrix, per grid point.
  The body's one store writes the block's product; the ten row blocks tile the output array, so after the region the
  output array is, at row `r` and column `s`, the sum over `k < 64` of the input array at `(r, k)` times the
  matrix at `(k, s)` — whatever the region found in its input arrays.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Linear5

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at a position of the block: the row of the loaded block against the column of the matrix
    (the changes of float format are the identity at the ideal instance). -/
theorem pay_apply (x0 : Vec Ideal S5000x64 .f32) (x1 : Vec Ideal S64x64 .f32) (j : S5000x64.Idx) :
    k5_pay1 (F := Ideal) x0 x1 j = ∑ k : Fin 64, x0 (ix2 (j 0) k) * x1 (ix2 k (j 1)) := by
  unfold k5_pay1
  refine (MatmulAt.c_apply _ _ j).trans ?_
  refine Finset.sum_congr rfl fun k _ => ?_
  rw [truncf_apply, truncf_apply, shapeCast_self]

/-- The windows' index maps over the ten grid points: the row-blocked windows sit at block row `t`, the matrix's at
    its one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The product of a [50000, 64] array and a [64, 64] matrix, position by position. -/
def G (X : S50000x64.Idx → EReal) (W : S64x64.Idx → EReal) : S50000x64.Idx → EReal :=
  fun i => ∑ k : Fin 64, X (ix2 (i 0) k) * W (ix2 k (i 1))

/-- What grid point `t` writes back is row block `t` of the product of the arrays the region found. -/
theorem flushed_eq (c : Dev nD) (t : Fin cfg5.N) :
    (dat5 V c).flushed 2 t = ((cfg5.win 2).blk t).view.read (Elt Ideal) (G (V c main_v67) (V c main_arg10)) := by
  show (cfg5.win 2).cut (grid5.coords t) ((dat5 V c).after 2 t) = _
  rw [after5_2]
  unfold out5_2
  rw [View.canon_unit_zero hz]
  simp only [View.ld_unit_zero (S := S5000x64) hz, View.ld_unit_zero (S := S64x64) hz]
  obtain ⟨e0, e1, e2, e3, e4, e5⟩ := idx_facts t
  funext j
  refine (pay_apply _ _ j).trans ?_
  show _ = G (V c main_v67) (V c main_arg10) (((cfg5.win 2).blk t).view.emb j)
  simp only [G]
  refine Finset.sum_congr rfl fun k _ => ?_
  have h0 : iblk5 V c 0 t (ix2 (j 0) k) = V c main_v67 (ix2 ((((cfg5.win 2).blk t).view.emb j) 0) k) := by
    show V c main_v67 (((cfg5.win 0).blk t).view.emb (ix2 (j 0) k)) = _
    refine congrArg (V c main_v67) (funext fun a => Fin.ext ?_)
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * k.val = k.val; omega
  have h1 : iblk5 V c 1 t (ix2 k (j 1)) = V c main_arg10 (ix2 k ((((cfg5.win 2).blk t).view.emb j) 1)) := by
    show V c main_arg10 (((cfg5.win 1).blk t).view.emb (ix2 k (j 1))) = _
    refine congrArg (V c main_arg10) (funext fun a => Fin.ext ?_)
    match a with
    | ⟨0, _⟩ => show win5_1.index t (0 : Fin 2) * 64 + 1 * k.val = k.val; omega
    | ⟨1, _⟩ => show win5_1.index t (1 : Fin 2) * 64 + 1 * (j 1).val = win5_2.index t (1 : Fin 2) * 64 + 1 * (j 1).val; omega
  exact congrArg₂ (fun a b : EReal => a * b) h0 h1

/-- A position of the output array lies in grid point `t`'s block iff each coordinate is in the block's range. -/
theorem mem_blk (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v68).slice (win5_2.rect t)).set ↔ _
  rw [View.set_slice_whole, Rect.mem_set_unit]
  exact Iff.rfl

/-- Every position of the output array is written: row `r` by grid point `r / 5000`. -/
theorem cover (i : S50000x64.Idx) : ∃ t : Fin cfg5.N, (cfg5.win 2).flush t = true ∧ i ∈ ((cfg5.win 2).blk t).view.set := by
  have hi0 : (i 0).val < 50000 := (i 0).isLt
  have hi1 : (i 1).val < 64 := (i 1).isLt
  have hN : grid5.N = 10 := N_5
  have ht : (i 0).val / 5000 < cfg5.N := by show (i 0).val / 5000 < grid5.N; omega
  obtain ⟨e0, e1, e2, e3, e4, e5⟩ := idx_facts ⟨(i 0).val / 5000, ht⟩
  have e4' : win5_2.index ⟨(i 0).val / 5000, ht⟩ (0 : Fin 2) = (i 0).val / 5000 := e4
  refine ⟨⟨(i 0).val / 5000, ht⟩, flush5_2 _, ?_⟩
  rw [mem_blk]
  intro a
  match a with
  | ⟨0, _⟩ => show win5_2.index ⟨(i 0).val / 5000, ht⟩ (0 : Fin 2) * 5000 ≤ (i 0).val ∧ (i 0).val < win5_2.index ⟨(i 0).val / 5000, ht⟩ (0 : Fin 2) * 5000 + 5000; omega
  | ⟨1, _⟩ => show win5_2.index ⟨(i 0).val / 5000, ht⟩ (1 : Fin 2) * 64 ≤ (i 1).val ∧ (i 1).val < win5_2.index ⟨(i 0).val / 5000, ht⟩ (1 : Fin 2) * 64 + 64; omega

/-- THE OUTPUT ARRAY after the region: the product of the input array and the matrix as the region found them. -/
theorem out_eq (c : Dev nD) : (dat5 V c).arrAt 2 cfg5.N = G (V c main_v67) (V c main_arg10) :=
  (dat5 V c).arrAt_eq_of_cover 2 (G (V c main_v67) (V c main_arg10)) (fun t _ => flushed_eq V c t) cover

end Cert.KernelIdeal.Linear5

end
-- ==== Proof.Linear7.lean ====
/-
  Region 7: a block of 5000 rows of a [50000, 64] array times a [64, 64] matrix, per grid point.
  The body's one store writes the block's product; the ten row blocks tile the output array, so after the region the
  output array is, at row `r` and column `s`, the sum over `k < 64` of the input array at `(r, k)` times the
  matrix at `(k, s)` — whatever the region found in its input arrays.
-/
import proofs.«102883_j78546361909653_1_alg».proof.Proof.Gen.KernelIdeal.Frame
import proofs.«102883_j78546361909653_1_alg».proof.Proof.MatmulAt
import Idealize.ShloMosaic.Lib.Pipeline.Value
import Idealize.ShloMosaic.Lib.ValueIdx

set_option maxRecDepth 16384

noncomputable section

namespace Cert.KernelIdeal.Linear7

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's value at a position of the block: the row of the loaded block against the column of the matrix
    (the changes of float format are the identity at the ideal instance). -/
theorem pay_apply (x0 : Vec Ideal S5000x64 .f32) (x1 : Vec Ideal S64x64 .f32) (j : S5000x64.Idx) :
    k7_pay1 (F := Ideal) x0 x1 j = ∑ k : Fin 64, x0 (ix2 (j 0) k) * x1 (ix2 k (j 1)) := by
  unfold k7_pay1
  refine (MatmulAt.c_apply _ _ j).trans ?_
  refine Finset.sum_congr rfl fun k _ => ?_
  rw [truncf_apply, truncf_apply, shapeCast_self]

/-- The windows' index maps over the ten grid points: the row-blocked windows sit at block row `t`, the matrix's at
    its one block. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- The product of a [50000, 64] array and a [64, 64] matrix, position by position. -/
def G (X : S50000x64.Idx → EReal) (W : S64x64.Idx → EReal) : S50000x64.Idx → EReal :=
  fun i => ∑ k : Fin 64, X (ix2 (i 0) k) * W (ix2 k (i 1))

/-- What grid point `t` writes back is row block `t` of the product of the arrays the region found. -/
theorem flushed_eq (c : Dev nD) (t : Fin cfg7.N) :
    (dat7 V c).flushed 2 t = ((cfg7.win 2).blk t).view.read (Elt Ideal) (G (V c main_v84) (V c main_arg12)) := by
  show (cfg7.win 2).cut (grid7.coords t) ((dat7 V c).after 2 t) = _
  rw [after7_2]
  unfold out7_2
  rw [View.canon_unit_zero hz]
  simp only [View.ld_unit_zero (S := S5000x64) hz, View.ld_unit_zero (S := S64x64) hz]
  obtain ⟨e0, e1, e2, e3, e4, e5⟩ := idx_facts t
  funext j
  refine (pay_apply _ _ j).trans ?_
  show _ = G (V c main_v84) (V c main_arg12) (((cfg7.win 2).blk t).view.emb j)
  simp only [G]
  refine Finset.sum_congr rfl fun k _ => ?_
  have h0 : iblk7 V c 0 t (ix2 (j 0) k) = V c main_v84 (ix2 ((((cfg7.win 2).blk t).view.emb j) 0) k) := by
    show V c main_v84 (((cfg7.win 0).blk t).view.emb (ix2 (j 0) k)) = _
    refine congrArg (V c main_v84) (funext fun a => Fin.ext ?_)
    match a with
    | ⟨0, _⟩ => show win7_0.index t (0 : Fin 2) * 5000 + 1 * (j 0).val = win7_2.index t (0 : Fin 2) * 5000 + 1 * (j 0).val; omega
    | ⟨1, _⟩ => show win7_0.index t (1 : Fin 2) * 64 + 1 * k.val = k.val; omega
  have h1 : iblk7 V c 1 t (ix2 k (j 1)) = V c main_arg12 (ix2 k ((((cfg7.win 2).blk t).view.emb j) 1)) := by
    show V c main_arg12 (((cfg7.win 1).blk t).view.emb (ix2 k (j 1))) = _
    refine congrArg (V c main_arg12) (funext fun a => Fin.ext ?_)
    match a with
    | ⟨0, _⟩ => show win7_1.index t (0 : Fin 2) * 64 + 1 * k.val = k.val; omega
    | ⟨1, _⟩ => show win7_1.index t (1 : Fin 2) * 64 + 1 * (j 1).val = win7_2.index t (1 : Fin 2) * 64 + 1 * (j 1).val; omega
  exact congrArg₂ (fun a b : EReal => a * b) h0 h1

/-- A position of the output array lies in grid point `t`'s block iff each coordinate is in the block's range. -/
theorem mem_blk (t : Fin cfg7.N) (i : S50000x64.Idx) :
    i ∈ ((cfg7.win 2).blk t).view.set ↔ ∀ a : Fin 2, win7_2.index t a * S5000x64.size a ≤ (i a).val ∧ (i a).val < win7_2.index t a * S5000x64.size a + S5000x64.size a := by
  show i ∈ ((View.whole main_v85).slice (win7_2.rect t)).set ↔ _
  rw [View.set_slice_whole, Rect.mem_set_unit]
  exact Iff.rfl

/-- Every position of the output array is written: row `r` by grid point `r / 5000`. -/
theorem cover (i : S50000x64.Idx) : ∃ t : Fin cfg7.N, (cfg7.win 2).flush t = true ∧ i ∈ ((cfg7.win 2).blk t).view.set := by
  have hi0 : (i 0).val < 50000 := (i 0).isLt
  have hi1 : (i 1).val < 64 := (i 1).isLt
  have hN : grid7.N = 10 := N_7
  have ht : (i 0).val / 5000 < cfg7.N := by show (i 0).val / 5000 < grid7.N; omega
  obtain ⟨e0, e1, e2, e3, e4, e5⟩ := idx_facts ⟨(i 0).val / 5000, ht⟩
  have e4' : win7_2.index ⟨(i 0).val / 5000, ht⟩ (0 : Fin 2) = (i 0).val / 5000 := e4
  refine ⟨⟨(i 0).val / 5000, ht⟩, flush7_2 _, ?_⟩
  rw [mem_blk]
  intro a
  match a with
  | ⟨0, _⟩ => show win7_2.index ⟨(i 0).val / 5000, ht⟩ (0 : Fin 2) * 5000 ≤ (i 0).val ∧ (i 0).val < win7_2.index ⟨(i 0).val / 5000, ht⟩ (0 : Fin 2) * 5000 + 5000; omega
  | ⟨1, _⟩ => show win7_2.index ⟨(i 0).val / 5000, ht⟩ (1 : Fin 2) * 64 ≤ (i 1).val ∧ (i 1).val < win7_2.index ⟨(i 0).val / 5000, ht⟩ (1 : Fin 2) * 64 + 64; omega

/-- THE OUTPUT ARRAY after the region: the product of the input array and the matrix as the region found them. -/
theorem out_eq (c : Dev nD) : (dat7 V c).arrAt 2 cfg7.N = G (V c main_v84) (V c main_arg12) :=
  (dat7 V c).arrAt_eq_of_cover 2 (G (V c main_v84) (V c main_arg12)) (fun t _ => flushed_eq V c t) cover

end Cert.KernelIdeal.Linear7

end
-- ==== Proof.Chain.lean ====
/-
  The kernel program's buffers along the run, part two: layer by layer.  Each region's output array is its closed
  form of the arrays the region found (the region modules); each closed form is a stage of the reference (Bridge);
  each host stretch between regions applies to those arrays the very operations the reference applies (gather the
  rows at the edges' sources, scale by the edge norms, scatter-add at the destinations), so its result is the
  reference's stage by unfolding both.  At the end the result buffer holds the reference's result stage.
-/
import proofs.«102883_j78546361909653_1_alg».proof.Proof.Fold
import proofs.«102883_j78546361909653_1_alg».proof.Proof.Bridge
import proofs.«102883_j78546361909653_1_alg».proof.Proof.Linear3
import proofs.«102883_j78546361909653_1_alg».proof.Proof.Linear5
import proofs.«102883_j78546361909653_1_alg».proof.Proof.Linear7

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Fold

variable (m : (ℓ : Loc nD τ sig) → Buf (Elt Ideal) ℓ) (ρ : Dev nD → PrngReg) (c : Dev nD)

/-- After region 0 the node features' perceptron image is the reference's stage `%25`. -/
theorem x0_at4 : W4 m ρ c (Proc.devRef .tc main_v34) = Cert.ReferenceIdeal.ReadP.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg5)) := by
  refine (W4_arr m ρ c 5).trans ((Mlp0.out_eq (V3 m ρ) c).trans ?_)
  show Mlp0.G (W3 m ρ c (Proc.devRef .tc main_arg0)) (W3 m ρ c (Proc.devRef .tc main_arg2)) (W3 m ρ c (Proc.devRef .tc main_v32)) (W3 m ρ c (Proc.devRef .tc main_arg4)) (W3 m ρ c (Proc.devRef .tc main_v33)) = _
  rw [arg0_at3 m ρ c, arg2_at3 m ρ c, b32_at3 m ρ c, arg4_at3 m ρ c, b64_at3 m ρ c]
  exact Cert.Bridge.mlp (m ((c : Thread nD τ).loc main_arg0)) (m ((c : Thread nD τ).loc main_arg2)) (m ((c : Thread nD τ).loc main_arg3)) (m ((c : Thread nD τ).loc main_arg4)) (m ((c : Thread nD τ).loc main_arg5))

/-- Layer 1's linear map: the reference's `%26`. -/
theorem h1_at5 : W5 m ρ c (Proc.devRef .tc main_v35) = Cert.ReferenceIdeal.ReadP.val_main_v26 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W5_arr m ρ c 2).trans ((Linear1.out_eq (V4 m ρ) c).trans ?_)
  show Linear1.G (W4 m ρ c (Proc.devRef .tc main_v34)) (W4 m ρ c (Proc.devRef .tc main_arg6)) = _
  rw [x0_at4 m ρ c, arg6_at4 m ρ c]
  exact Cert.Bridge.linear (Cert.ReferenceIdeal.ReadP.val_main_v25 (F := Ideal) (m ((c : Thread nD τ).loc main_arg0)) (m ((c : Thread nD τ).loc main_arg2)) (m ((c : Thread nD τ).loc main_arg3)) (m ((c : Thread nD τ).loc main_arg4)) (m ((c : Thread nD τ).loc main_arg5))) (m ((c : Thread nD τ).loc main_arg6))

set_option maxHeartbeats 4000000 in
/-- Layer 1's gather, scaling by the edge norms and scatter-add: the reference's `%54` (the same host operations of the same arrays). -/
theorem agg1_at6 : W6 m ρ c (Proc.devRef .tc main_v48) = Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v48) = _
  after_results_simp
  rw [h1_at5 m ρ c, v3_at5 m ρ c, v6_at5 m ρ c, norm_at5 m ρ c]
  rfl

theorem b1_at6 : W6 m ρ c (Proc.devRef .tc main_v50) = (shapeCast S1x64 (m ((c : Thread nD τ).loc main_arg7)) shapeCasts_S64_S1x64) := by
  show StableHlo.after hostOps2 (W5 m ρ c) (Proc.devRef .tc main_v50) = _
  after_results_simp
  rw [arg7_at5 m ρ c]
  rfl

/-- Layer 1's epilogue: the reference's `%62`. -/
theorem out1_at7 : W7 m ρ c (Proc.devRef .tc main_v51) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W7_arr m ρ c 3).trans ((Post2.out_eq (V6 m ρ) c).trans ?_)
  show Post2.G (W6 m ρ c (Proc.devRef .tc main_v48)) (W6 m ρ c (Proc.devRef .tc main_v50)) = _
  rw [agg1_at6 m ρ c, b1_at6 m ρ c]
  exact (Cert.Bridge.post1 (Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7))).trans rfl

/-- Layer 2's linear map: the reference's `%63`. -/
theorem h2_at8 : W8 m ρ c (Proc.devRef .tc main_v52) = Cert.ReferenceIdeal.ReadP.val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W8_arr m ρ c 2).trans ((Linear3.out_eq (V7 m ρ) c).trans ?_)
  show Linear3.G (W7 m ρ c (Proc.devRef .tc main_v51)) (W7 m ρ c (Proc.devRef .tc main_arg8)) = _
  rw [out1_at7 m ρ c, arg8_at7 m ρ c]
  exact Cert.Bridge.linear (Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (m ((c : Thread nD τ).loc main_arg8))

set_option maxHeartbeats 4000000 in
/-- Layer 2's aggregation: the reference's `%91`. -/
theorem agg2_at9 : W9 m ρ c (Proc.devRef .tc main_v65) = Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps4 (W8 m ρ c) (Proc.devRef .tc main_v65) = _
  after_results_simp
  rw [h2_at8 m ρ c, v3_at8 m ρ c, v6_at8 m ρ c, norm_at8 m ρ c]
  rfl

theorem b2_at9 : W9 m ρ c (Proc.devRef .tc main_v66) = (shapeCast S1x64 (m ((c : Thread nD τ).loc main_arg9)) shapeCasts_S64_S1x64) := by
  show StableHlo.after hostOps4 (W8 m ρ c) (Proc.devRef .tc main_v66) = _
  after_results_simp
  rw [arg9_at8 m ρ c]
  rfl

theorem out1_at9 : W9 m ρ c (Proc.devRef .tc main_v51) = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((by host_untouched hostOps4 : W9 m ρ c (Proc.devRef .tc main_v51) = W8 m ρ c (Proc.devRef .tc main_v51)).trans (((W8_arr m ρ c 0).trans (((dat3 (V7 m ρ) c).arrAt_in 0 rfl _).trans (A_eq3 (V7 m ρ) c 0))) : W8 m ρ c (Proc.devRef .tc main_v51) = W7 m ρ c (Proc.devRef .tc main_v51))).trans (out1_at7 m ρ c)

/-- Layer 2's epilogue with its residual: the reference's `%100`. -/
theorem out2_at10 : W10 m ρ c (Proc.devRef .tc main_v67) = Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W10_arr m ρ c 3).trans ((Post4.out_eq (V9 m ρ) c).trans ?_)
  show Post4.G (W9 m ρ c (Proc.devRef .tc main_v65)) (W9 m ρ c (Proc.devRef .tc main_v66)) (W9 m ρ c (Proc.devRef .tc main_v51)) = _
  rw [agg2_at9 m ρ c, b2_at9 m ρ c, out1_at9 m ρ c]
  exact (Cert.Bridge.post2 (Cert.ReferenceIdeal.ReadP.val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)))).trans rfl

/-- Layer 3's linear map: the reference's `%101`. -/
theorem h3_at11 : W11 m ρ c (Proc.devRef .tc main_v68) = Cert.ReferenceIdeal.ReadP.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W11_arr m ρ c 2).trans ((Linear5.out_eq (V10 m ρ) c).trans ?_)
  show Linear5.G (W10 m ρ c (Proc.devRef .tc main_v67)) (W10 m ρ c (Proc.devRef .tc main_arg10)) = _
  rw [out2_at10 m ρ c, arg10_at10 m ρ c]
  exact Cert.Bridge.linear (Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))

set_option maxHeartbeats 4000000 in
/-- Layer 3's aggregation: the reference's `%129`. -/
theorem agg3_at12 : W12 m ρ c (Proc.devRef .tc main_v81) = Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps6 (W11 m ρ c) (Proc.devRef .tc main_v81) = _
  after_results_simp
  rw [h3_at11 m ρ c, v3_at11 m ρ c, v6_at11 m ρ c, norm_at11 m ρ c]
  rfl

theorem b3_at12 : W12 m ρ c (Proc.devRef .tc main_v83) = (shapeCast S1x64 (m ((c : Thread nD τ).loc main_arg11)) shapeCasts_S64_S1x64) := by
  show StableHlo.after hostOps6 (W11 m ρ c) (Proc.devRef .tc main_v83) = _
  after_results_simp
  rw [arg11_at11 m ρ c]
  rfl

/-- Layer 3's epilogue: the reference's `%137`. -/
theorem out3_at13 : W13 m ρ c (Proc.devRef .tc main_v84) = Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W13_arr m ρ c 3).trans ((Post6.out_eq (V12 m ρ) c).trans ?_)
  show Post6.G (W12 m ρ c (Proc.devRef .tc main_v81)) (W12 m ρ c (Proc.devRef .tc main_v83)) = _
  rw [agg3_at12 m ρ c, b3_at12 m ρ c]
  exact (Cert.Bridge.post3 (Cert.ReferenceIdeal.ReadP.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11))).trans rfl

/-- Layer 4's linear map: the reference's `%138`. -/
theorem h4_at14 : W14 m ρ c (Proc.devRef .tc main_v85) = Cert.ReferenceIdeal.ReadP.val_main_v138 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W14_arr m ρ c 2).trans ((Linear7.out_eq (V13 m ρ) c).trans ?_)
  show Linear7.G (W13 m ρ c (Proc.devRef .tc main_v84)) (W13 m ρ c (Proc.devRef .tc main_arg12)) = _
  rw [out3_at13 m ρ c, arg12_at13 m ρ c]
  exact Cert.Bridge.linear (Cert.ReferenceIdeal.ReadP.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) (m ((c : Thread nD τ).loc main_arg12))

set_option maxHeartbeats 4000000 in
/-- Layer 4's aggregation: the reference's `%166`. -/
theorem agg4_at15 : W15 m ρ c (Proc.devRef .tc main_v98) = Cert.ReferenceIdeal.ReadP.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps8 (W14 m ρ c) (Proc.devRef .tc main_v98) = _
  after_results_simp
  rw [h4_at14 m ρ c, v3_at14 m ρ c, v6_at14 m ρ c, norm_at14 m ρ c]
  rfl

theorem b4_at15 : W15 m ρ c (Proc.devRef .tc main_v99) = (shapeCast S1x64 (m ((c : Thread nD τ).loc main_arg13)) shapeCasts_S64_S1x64) := by
  show StableHlo.after hostOps8 (W14 m ρ c) (Proc.devRef .tc main_v99) = _
  after_results_simp
  rw [arg13_at14 m ρ c]
  rfl

theorem out2_at15 : W15 m ρ c (Proc.devRef .tc main_v67) = Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((by host_untouched hostOps8 : W15 m ρ c (Proc.devRef .tc main_v67) = W14 m ρ c (Proc.devRef .tc main_v67)).trans ((W14_of_ne m ρ c main_v67 (by decide)).trans ((W13_of_ne m ρ c main_v67 (by decide)).trans ((by host_untouched hostOps6 : W12 m ρ c (Proc.devRef .tc main_v67) = W11 m ρ c (Proc.devRef .tc main_v67)).trans (((W11_arr m ρ c 0).trans (((dat5 (V10 m ρ) c).arrAt_in 0 rfl _).trans (A_eq5 (V10 m ρ) c 0))) : W11 m ρ c (Proc.devRef .tc main_v67) = W10 m ρ c (Proc.devRef .tc main_v67)))))).trans (out2_at10 m ρ c)

/-- Layer 4's epilogue (no rectifier) with its residual: the reference's `%170`. -/
theorem out4_at16 : W16 m ρ c (Proc.devRef .tc main_v100) = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W16_arr m ρ c 3).trans ((Post8.out_eq (V15 m ρ) c).trans ?_)
  show Post8.G (W15 m ρ c (Proc.devRef .tc main_v98)) (W15 m ρ c (Proc.devRef .tc main_v99)) (W15 m ρ c (Proc.devRef .tc main_v67)) = _
  rw [agg4_at15 m ρ c, b4_at15 m ρ c, out2_at15 m ρ c]
  exact (Cert.Bridge.post4 (Cert.ReferenceIdeal.ReadP.val_main_v166 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (m ((c : Thread nD τ).loc main_arg13)) (Cert.ReferenceIdeal.ReadP.val_main_v100 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))).trans rfl

theorem out4_at17 : W17 m ρ c (Proc.devRef .tc main_v100) = Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (by host_untouched hostOps9 : W17 m ρ c (Proc.devRef .tc main_v100) = W16 m ρ c (Proc.devRef .tc main_v100)).trans (out4_at16 m ρ c)

theorem bf_at17 : W17 m ρ c (Proc.devRef .tc main_v101) = (shapeCast S1x2 (m ((c : Thread nD τ).loc main_arg15)) shapeCasts_S2_S1x2) := by
  show StableHlo.after hostOps9 (W16 m ρ c) (Proc.devRef .tc main_v101) = _
  after_results_simp
  rw [arg15_at16 m ρ c]
  rfl

/-- THE RESULT: after the last region the result buffer holds the reference's result stage `%174` of the arguments. -/
theorem result_at18 : W18 m ρ c (Proc.devRef .tc main_v102) = Cert.ReferenceIdeal.ReadP.val_main_v174 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W18_arr m ρ c 3).trans ((Final9.out_eq (V17 m ρ) c).trans ?_)
  show Final9.G (W17 m ρ c (Proc.devRef .tc main_v100)) (W17 m ρ c (Proc.devRef .tc main_arg14)) (W17 m ρ c (Proc.devRef .tc main_v101)) = _
  rw [out4_at17 m ρ c, arg14_at17 m ρ c, bf_at17 m ρ c]
  exact (Cert.Bridge.final (Cert.ReferenceIdeal.ReadP.val_main_v170 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) (m ((c : Thread nD τ).loc main_arg14)) (m ((c : Thread nD τ).loc main_arg15))).trans rfl

end Cert.KernelIdeal.Chain

end
-- ==== Proof.lean ====
/-
  A four-layer graph convolution network on 50000 nodes and 800000 edges (with self-loops): the kernel program runs the
  dense parts — the two-layer perceptron, each layer's linear map and epilogue, the last linear map — as ten pallas
  regions on blocks of 5000 rows, and the graph parts — degrees, edge norms, gather, scatter-add — as host
  operations; the reference is all host operations.  At the ideal instance (floats extended reals, changes of float
  format the identity) the two compute the same function of the arguments:
    * a region's matrix product, block by block, is the host's `dot_general`: the same sum over the contracted axis;
    * a region's bias row broadcast is the host's `broadcast_in_dim`, the leaky rectifier the same compare / multiply /
      select with the same literal words, the residual the same sum;
    * the host operations between the regions are the reference's own operations, applied to equal arrays.
  No law of arithmetic beyond these identifications is used, so the precondition (finite inputs) is never opened.
  The three frames: the two kernel programs' are the generated frame certificates; the reference's is its run with the
  result dropped.  The ideal pass rewrote nothing, so `preserves` is `True`.
-/
import proofs.«102883_j78546361909653_1_alg».proof.Defs
import proofs.«102883_j78546361909653_1_alg».proof.Proof.Gen.Kernel
import proofs.«102883_j78546361909653_1_alg».proof.Proof.Gen.Kernel.Frame
import proofs.«102883_j78546361909653_1_alg».proof.Proof.Gen.KernelIdeal
import proofs.«102883_j78546361909653_1_alg».proof.Proof.Gen.KernelIdeal.Frame
import proofs.«102883_j78546361909653_1_alg».proof.Proof.Gen.ReferenceIdeal
import proofs.«102883_j78546361909653_1_alg».proof.Proof.Gen.Pre_finite_inputs
import proofs.«102883_j78546361909653_1_alg».proof.Proof.KRun
import proofs.«102883_j78546361909653_1_alg».proof.Proof.Chain
import proofs.«102883_j78546361909653_1_alg».proof.Proof.RefRunP
import proofs.«102883_j78546361909653_1_alg».proof.Proof.RefReadP
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's result stage of the (agreeing) arguments in their result buffers. -/
theorem algebraic : Cert.algebraic_KernelIdeal_ReferenceIdeal := by
  intro m ρ m' ρ' _ hagree
  refine ⟨fun c => Cert.KernelIdeal.Gen.W18 m ρ c (Proc.devRef .tc Cert.KernelIdeal.main_v102),
    Cert.KernelIdeal.KRun.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [Cert.ReferenceIdeal.ReadP.val_main_v174_eq, h0, h1, h2, h3, h4, h5, h6, h7, h8, h9, h10, h11, h12, h13, h14, h15]
  exact (Cert.KernelIdeal.Chain.result_at18 m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
